-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x4 : Shape := ⟨2, ![2048, 4]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S8x4096x2048 .f32) (main_arg1 : FVec F S2048x4 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S8x4096x2048 : Shape := ⟨3, ![8, 4096, 2048]⟩
abbrev S2048x4 : Shape := ⟨2, ![2048, 4]⟩
abbrev S4x2048 : Shape := ⟨2, ![4, 2048]⟩
abbrev S1x512x2048 : Shape := ⟨3, ![1, 512, 2048]⟩
abbrev S1x8x2048 : Shape := ⟨3, ![1, 8, 2048]⟩
abbrev S512x2048 : Shape := ⟨2, ![512, 2048]⟩
abbrev S1x2048 : Shape := ⟨2, ![1, 2048]⟩
abbrev S2048 : Shape := ⟨1, ![2048]⟩
abbrev S8x2048 : Shape := ⟨2, ![8, 2048]⟩
abbrev S7x2048 : Shape := ⟨2, ![7, 2048]⟩
abbrev S2x2048 : Shape := ⟨2, ![2, 2048]⟩
abbrev S6x2048 : Shape := ⟨2, ![6, 2048]⟩
abbrev S3x2048 : Shape := ⟨2, ![3, 2048]⟩
abbrev S5x2048 : Shape := ⟨2, ![5, 2048]⟩
abbrev S8x3x2048 : Shape := ⟨3, ![8, 3, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S4x2048, .f32⟩
  | .hbm, ⟨3, _⟩ => ⟨S8x4096x2048, .f32⟩
  | .hbm, ⟨4, _⟩ => ⟨S8x3x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S4x2048, .f32⟩
  | .local _ .vmem, ⟨5, _⟩ => ⟨S1x512x2048, .f32⟩
  | .local _ .vmem, ⟨6, _⟩ => ⟨S1x512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x4_S4x2048_1_0 : S2048x4.Transposes [1, 0] S4x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  slices_S4x2048_o3_0_S1x2048 : S4x2048.Slices ![3, 0] S1x2048
  shapeCasts_S1x2048_S2048 : S1x2048.ShapeCasts S2048
  shapeCasts_S2048_S1x2048 : S2048.ShapeCasts S1x2048
  broadcasts_S1x2048_S512x2048 : S1x2048.Broadcasts S512x2048
  slices_S4x2048_o2_0_S1x2048 : S4x2048.Slices ![2, 0] S1x2048
  rotates_S512x2048_d0 : S512x2048.Rotates 0 none
  slices_S4x2048_o1_0_S1x2048 : S4x2048.Slices ![1, 0] S1x2048
  slices_S4x2048_o0_0_S1x2048 : S4x2048.Slices ![0, 0] S1x2048
  shapeCasts_S512x2048_S1x512x2048 : S512x2048.ShapeCasts S1x512x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  slices_S512x2048_o0_0_S8x2048 : S512x2048.Slices ![0, 0] S8x2048
  broadcasts_S1x2048_S8x2048 : S1x2048.Broadcasts S8x2048
  slices_S8x2048_o7_0_S1x2048 : S8x2048.Slices ![7, 0] S1x2048
  slices_S512x2048_o0_0_S7x2048 : S512x2048.Slices ![0, 0] S7x2048
  concatenates_S1x2048_S7x2048_S8x2048_d0 : Shape.Concatenates [S1x2048, S7x2048] S8x2048 0
  slices_S8x2048_o6_0_S2x2048 : S8x2048.Slices ![6, 0] S2x2048
  slices_S512x2048_o0_0_S6x2048 : S512x2048.Slices ![0, 0] S6x2048
  concatenates_S2x2048_S6x2048_S8x2048_d0 : Shape.Concatenates [S2x2048, S6x2048] S8x2048 0
  slices_S8x2048_o5_0_S3x2048 : S8x2048.Slices ![5, 0] S3x2048
  slices_S512x2048_o0_0_S5x2048 : S512x2048.Slices ![0, 0] S5x2048
  concatenates_S3x2048_S5x2048_S8x2048_d0 : Shape.Concatenates [S3x2048, S5x2048] S8x2048 0
  inb_S1x512x2048_S1x8x2048_0_0_0 : ∀ a, (![0, 0, 0] : Fin 3 → Nat) a + S1x8x2048.size a ≤ S1x512x2048.size a
  shapeCasts_S8x2048_S1x8x2048 : S8x2048.ShapeCasts S1x8x2048
  slices_S8x4096x2048_S8x3x2048_0_4093_0 : S8x4096x2048.Slices ![0, 4093, 0] S8x3x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S8x4096x2048.size a
  hwx0_1 : ∀ i : grid0.Coords, EltTy.bits .f32 = 32 ∨ (Rect.block (s := S8x4096x2048) S1x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .f32 = 32 ∨ (Rect.block (s := S8x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x4 : Shape := ⟨2, ![2048, 4]⟩
abbrev S_ : Shape := ⟨0, ![]⟩
abbrev S8x4099x2048 : Shape := ⟨3, ![8, 4099, 2048]⟩
abbrev S2048x1 : Shape := ⟨2, ![2048, 1]⟩
abbrev S2048 : Shape := ⟨1, ![2048]⟩
abbrev S1x1x2048 : Shape := ⟨3, ![1, 1, 2048]⟩
abbrev S8x3x2048 : Shape := ⟨3, ![8, 3, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S8x4099x2048, .f32⟩
  | .hbm, ⟨5, _⟩ => ⟨S_, .f32⟩
  | .hbm, ⟨6, _⟩ => ⟨S8x4096x2048, .f32⟩
  | .hbm, ⟨7, _⟩ => ⟨S8x4096x2048, .f32⟩
  | .hbm, ⟨8, _⟩ => ⟨S2048x1, .f32⟩
  | .hbm, ⟨9, _⟩ => ⟨S2048, .f32⟩
  | .hbm, ⟨10, _⟩ => ⟨S1x1x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S2048x1, .f32⟩
  | .hbm, ⟨16, _⟩ => ⟨S2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S2048x1, .f32⟩
  | .hbm, ⟨23, _⟩ => ⟨S2048, .f32⟩
  | .hbm, ⟨24, _⟩ => ⟨S1x1x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S2048x1, .f32⟩
  | .hbm, ⟨30, _⟩ => ⟨S2048, .f32⟩
  | .hbm, ⟨31, _⟩ => ⟨S1x1x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x3x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S8x4096x2048_S8x4099x2048_000_300_000 : S8x4096x2048.Pads (![0, 3, 0] : Fin 3 → Nat) ![0, 0, 0] ![0, 0, 0] S8x4099x2048
  h_S_ : 0 < S_.numel
  bcast_S_S8x4096x2048 : S_.BroadcastsInDim S8x4096x2048 (![] : Fin 0 → Fin S8x4096x2048.rank)
  slices_S8x4099x2048_S8x4096x2048_0_0_0 : S8x4099x2048.Slices ![0, 0, 0] S8x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4099x2048_S8x4096x2048_0_1_0 : S8x4099x2048.Slices ![0, 1, 0] S8x4096x2048
  slices_S2048x4_S2048x1_0_1 : S2048x4.Slices ![0, 1] S2048x1
  slices_S8x4099x2048_S8x4096x2048_0_2_0 : S8x4099x2048.Slices ![0, 2, 0] S8x4096x2048
  slices_S2048x4_S2048x1_0_2 : S2048x4.Slices ![0, 2] S2048x1
  slices_S8x4099x2048_S8x4096x2048_0_3_0 : S8x4099x2048.Slices ![0, 3, 0] S8x4096x2048
  slices_S2048x4_S2048x1_0_3 : S2048x4.Slices ![0, 3] S2048x1
  slices_S8x4096x2048_S8x3x2048_0_4093_0 : S8x4096x2048.Slices ![0, 4093, 0] S8x3x2048

variable [Facts₀]

class Facts : Prop extends Facts₀ where

variable [Facts]
-- ==== Proof.BitsBody.lean ====
/-
  The convolution kernel's body as a Hoare triple, at any float instance.

  One grid point handles one tile of 512 time steps of one batch row, all 2048 channels. The body is handed
  the tile `x0` (1 x 512 x 2048), the eight time steps before it `x1` (1 x 8 x 2048; at the first tile of
  a row a block whose contents are masked to zero), and the four taps `x2` (4 x 2048). It stores twice into the
  output buffer: first the whole tile computed with cyclic shifts of the tile itself (right for every time
  step from the fourth on, wrong in the first three where the shift wraps round), then the first eight
  time steps again, computed from the true predecessors. So what the buffer holds at the end is the second
  store laid over the first: the canonical form of the two pieces, the later one first.
-/
import proofs.«173410_j35545149342129_2_alg».proof.Proof.Gen.Kernel.Launch
import proofs.«173410_j35545149342129_2_alg».proof.Proof.Gen.Kernel.Skeleton
import proofs.«173410_j35545149342129_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- The whole tile. -/
abbrev rTile : Rect S1x512x2048 := Rect.unit (s := S1x512x2048) ![0, 0, 0] S1x512x2048.size Gen.inb_S1x512x2048_S1x512x2048_0_0_0
/-- The first eight time steps of the tile. -/
abbrev rHead : Rect S1x512x2048 := Rect.unit (s := S1x512x2048) ![0, 0, 0] S1x8x2048.size Gen.inb_S1x512x2048_S1x8x2048_0_0_0
/-- The whole block of predecessors. -/
abbrev rPrev : Rect S1x8x2048 := Rect.unit (s := S1x8x2048) ![0, 0, 0] S1x8x2048.size Gen.inb_S1x8x2048_S1x8x2048_0_0_0
/-- The whole block of taps. -/
abbrev rTaps : Rect S4x2048 := Rect.unit (s := S4x2048) ![0, 0] S4x2048.size Gen.inb_S4x2048_S4x2048_0_0

/-- The zero offsets of a rank-3 rectangle, however spelt. -/
theorem zero3 : (![0, 0, 0] : Fin 3 → ℕ) = fun _ => 0 := by funext a; fin_cases a <;> rfl
/-- The zero offsets of a rank-2 rectangle. -/
theorem zero2 : (![0, 0] : Fin 2 → ℕ) = fun _ => 0 := by funext a; fin_cases a <;> rfl

/-! ## What the body leaves in the output buffer -/

/-- The tile computed with cyclic shifts: the first store's value. -/
def bulk (x0 : Vec F S1x512x2048 .f32) (x2 : Vec F S4x2048 .f32) : Vec F S1x512x2048 .f32 :=
  k0_pay4 (View.ld x0 rTile) (View.ld x2 rTaps)

/-- The first eight time steps computed from the true predecessors: the second store's value. -/
def head (i : grid0.Coords) (x0 : Vec F S1x512x2048 .f32) (x1 : Vec F S1x8x2048 .f32) (x2 : Vec F S4x2048 .f32) : Vec F S1x8x2048 .f32 :=
  k0_pay1 (k0_pay2 (View.ld x0 rTile)) (k0_pay3 (View.ld x2 rTaps)) (k0_pay5 i (View.ld x1 rPrev)) (k0_pay6 (View.ld x2 rTaps))

/-- The output buffer after the body: the second store over the first. -/
def outTile (i : grid0.Coords) (x0 : Vec F S1x512x2048 .f32) (x1 : Vec F S1x8x2048 .f32) (x2 : Vec F S4x2048 .f32) : Vec F S1x512x2048 .f32 :=
  View.canon [⟨rHead, head i x0 x1 x2⟩, ⟨rTile, bulk x0 x2⟩]

/-- Every element of the buffer is stored to: the first store covers the whole tile. -/
theorem cover_out (p1 : Vec F S1x8x2048 .f32) (p0 : Vec F S1x512x2048 .f32) (y : S1x512x2048.Idx) :
    ∃ pc ∈ ([⟨rHead, p1⟩, ⟨rTile, p0⟩] : List (View.Piece (Elt F) S1x512x2048 .f32)), y ∈ pc.1.set := by
  exact ⟨⟨rTile, p0⟩, List.mem_cons_of_mem _ (List.mem_singleton_self _), View.mem_set_unit_zero zero3 Gen.inb_S1x512x2048_S1x512x2048_0_0_0 y⟩

/-! ## The triple -/

set_option maxHeartbeats 1000000 in
/-- The body on whole staging buffers — the three inputs at contents `x0`, `x1`, `x2`, the output at anything —
    runs to the continuation with the inputs as they were and the output at `outTile`. -/
theorem sound_kernel (c : Dev nD) (E : Set ℕ) (i : grid0.Coords)
    (arg2 : Memref sig .tc .vmem S1x512x2048 .f32) (harg2 : arg2.IsWhole) (arg3 : Memref sig .tc .vmem S1x8x2048 .f32) (harg3 : arg3.IsWhole)
    (arg4 : Memref sig .tc .vmem S4x2048 .f32) (harg4 : arg4.IsWhole) (arg5 : Memref sig .tc .vmem S1x512x2048 .f32) (harg5 : arg5.IsWhole)
    (x0 : Vec F S1x512x2048 .f32) (x1 : Vec F S1x8x2048 .f32) (x2 : Vec F S4x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile i x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _ _)

end Cert.Kernel.Conv

end
-- ==== Proof.BitsData.lean ====
/-
  The convolution program's run: the host transpose of the taps, the kernel region over its 8 x 8 grid, the host
  slice of the last three time steps.

  The region has four windows. Windows 0 and 1 are both cut out of the SAME array, the input `x`: the current
  tile of 512 time steps, and the eight time steps before it. Both only read it, so the array's full share is
  split in two halves, one per window, when the region is entered, and the halves are joined again when it is
  left: between the two, nothing can write `x`. Window 2 is the transposed taps, window 3 the result.
  What each staging buffer holds after the body at a point: an input's its block of the array, the result's
  the tile the body computed from the three input blocks (`outTile`).
-/
import proofs.«173410_j35545149342129_2_alg».proof.Proof.BitsBody
import Idealize.ShloMosaic.Lib.Pipeline.Regions
import Idealize.ShloMosaic.Lib.Pipeline.Frame

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents along @main -/

/-- Core `c`'s buffers at launch; -/
abbrev V₀ (c : Dev nD) : Valuation τ sig (Elt F) := fun b => (s₀ m ρ).mem ((c : Dev nD), b)
/-- when the region is entered (the taps transposed); -/
abbrev Vv (c : Dev nD) : Valuation τ sig (Elt F) := StableHlo.after hostOps0 (V₀ m ρ c)
/-- the same, read at a TensorCore reference. -/
abbrev V (c : Dev nD) (b : Ref sig .tc) : Buf (Elt F) ((c : Thread nD τ).loc b) := Vv m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The proof data -/

/-- The region's data on core `c`: the arrays as the region finds them; after the body each input's buffer at its
    block and the result's at the computed tile; the invariant the scoped buffers no window stages (there are none);
    the input `x` held by halves, one per window on it; nothing owed. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => outTile (grid0.coords t) (iblk m ρ c 0 t) (iblk m ρ c 1 t) (iblk m ρ c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) :
    (dats m ρ 0 c).after 3 t = outTile (grid0.coords t) (iblk m ρ c 0 t) (iblk m ρ c 1 t) (iblk m ρ c 2 t) := by dsimp only [dats]

/-- An input's current staging buffer holds its block at every point, whether the pipeline fetched it there or kept
    it from the point before (the block index then has not moved): the two windows on the input `x`, -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- and the taps, fetched once. -/
theorem before0_2 (c : Dev nD) (t : Fin cfg0.N) (d) : (dats m ρ 0 c).before 2 t d = iblk m ρ c 2 t :=
  ((dats m ρ 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t))

/-- The body at any point: the inputs' buffers hold their blocks, so the body's triple applies; the invariant and
    the core's debts pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m ρ c 0 t) (iblk m ρ c 1 t) (iblk m ρ c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m ρ 0 c) (defs₀ (F := F)) Variants.none () Set.univ := fun t => by
  rw [bigSep_W0, bigSep_W0]
  exact sound_body m ρ c t

end Cert.Kernel.Conv

end
-- ==== Proof.BitsRun.lean ====
/-
  The launch of the convolution program, by the library's theorem for an @main given as a list of segments:
  the host segment that transposes the taps, the kernel region, the host segment that slices the last three time
  steps of the input.

  Between segments the thread holds its five HBM buffers whole. At the region's entry the input array's full share
  is split in two halves, one for each of the two windows cut out of it; at the exit the halves — which still hold
  what the array held, since an input is never written — are joined again, and the result array comes back at what
  the write-backs made of it.
-/
import proofs.«173410_j35545149342129_2_alg».proof.Proof.BitsData

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-! ## The five HBM buffers, one by one -/

/-- The thread's unscoped buffers held whole at a valuation are its five HBM arrays' points-tos: the three that
    some window is cut from, then the two the region bypasses. -/
theorem held_eq (c : Dev nD) (W : Valuation τ sig (Elt F)) :
    (StableHlo.held (c : Thread nD τ) (Pipeline.ucRefs τ sig) W : sProp 𝕄)
      = iprop(((((c : Thread nD τ).loc main_arg0) ↦{fullShare} W main_arg0) ∗ (((c : Thread nD τ).loc main_v0) ↦{fullShare} W main_v0)
            ∗ (((c : Thread nD τ).loc main_v1) ↦{fullShare} W main_v1))
          ∗ ((((c : Thread nD τ).loc main_arg1) ↦{fullShare} W main_arg1) ∗ (((c : Thread nD τ).loc main_v2) ↦{fullShare} W main_v2))) := by
  rw [← Pipeline.unscopedBufs_held (Ix := Unit) (Name := ℕ) (U := UR sig nD τ) (Lvl := ℕ) c W,
    Pipeline.unscopedBufs_split₀ cfgs 0 winFacts₀0.arr_unscoped c, unscopedRest0_eq]
  unfold Pipeline.arrBufs
  rw [show Finset.univ.image (Pipeline.arrRef spec0) = {main_arg0, main_v0, main_v1} from by decide,
    bigSep_insert (by decide), bigSep_insert (by decide), bigSep_singleton]
  rfl

/-- The shares the region holds its arrays at: the input by halves, the taps and the result whole. -/
theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl
theorem share3 (c : Dev nD) : (dats m ρ 0 c).share 3 = fullShare := rfl

/-- The region's arrays, window by window. -/
theorem arrays_eq (c : Dev nD) (G : (w : Fin cfg0.W) → Buf (Elt F) ((cfg0.win w).arr.view.loc (c : Thread nD τ))) :
    ((dats m ρ 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)) := by
  have h : ((dats m ρ 0 c).arrays G : sProp 𝕄)
      = bigSep Finset.univ fun w : Fin 4 => ((((c : Thread nD τ).loc (Pipeline.arrRef spec0 w)) ↦{(dats m ρ 0 c).share w} G w : sProp 𝕄)) := by
    unfold Dat.arrays
    exact bigSep_congr fun w _ => by rw [(arr_whole0 w).set_eq_univ]
  rw [h, bigSep_W0, share0, share1, share2, share3]

/-! ## The segments -/

/-- What rides beside the buffers: the core owing nothing. -/
abbrev R (c : Dev nD) : sProp 𝕄 := iprop(∃ W, owes (c : Thread nD τ) (0 : CellTallies nD τ sig Unit) W)

/-- The transpose of the taps, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The result array after the region's write-backs. -/
abbrev outArr (c : Dev nD) : Buf (Elt F) ((c : Thread nD τ).loc main_v1) := (dats m ρ 0 c).arrAt 3 cfg0.N

/-- The buffers when the region is left: as it found them, the result array at what the write-backs made of it. -/
def V₁ (c : Dev nD) : Valuation τ sig (Elt F) :=
  Function.update (Vv m ρ c) (Proc.devRef .tc main_v1) (outArr m ρ c)

theorem V₁_v1 (c : Dev nD) : V₁ m ρ c main_v1 = outArr m ρ c := Function.update_self ..
theorem V₁_of_ne (c : Dev nD) (b : Ref sig .tc) (hb : b ≠ main_v1) : V₁ m ρ c b = Vv m ρ c b :=
  Function.update_of_ne (StableHlo.devRef_ne_of_ne hb) ..

/-- The slice of the input's last three time steps, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m ρ) R

/-- An input array is never written: after every point it holds what the region found. -/
theorem arrAt_in0 (c : Dev nD) (n : ℕ) : (dats m ρ 0 c).arrAt 0 n = V m ρ c main_arg0 :=
  ((dats m ρ 0 c).arrAt_in 0 rfl n).trans (A_eq m ρ c 0)
theorem arrAt_in1 (c : Dev nD) (n : ℕ) : (dats m ρ 0 c).arrAt 1 n = V m ρ c main_arg0 :=
  ((dats m ρ 0 c).arrAt_in 1 rfl n).trans (A_eq m ρ c 1)
theorem arrAt_in2 (c : Dev nD) (n : ℕ) : (dats m ρ 0 c).arrAt 2 n = V m ρ c main_v0 :=
  ((dats m ρ 0 c).arrAt_in 2 rfl n).trans (A_eq m ρ c 2)

set_option backward.isDefEq.respectTransparency.types false in
/-- The region: entered from what the transpose left, the input's share split between the two windows on it;
    left with the halves joined and the result array at its final contents. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (Vv m ρ c) ∗ R c)
  post c := iprop(StableHlo.held (c : Thread nD τ) (Pipeline.ucRefs τ sig) (V₁ m ρ c) ∗ R c)
  X _ := iprop(emp)
  Y _ := iprop(emp)
  Z c := iprop((((c : Thread nD τ).loc main_arg1) ↦{fullShare} V m ρ c main_arg1) ∗ (((c : Thread nD τ).loc main_v2) ↦{fullShare} V m ρ c main_v2))
  hentry c := by
    rw [held_eq, arrays_eq]
    iintro ⟨⟨⟨⟨Ha, H0, H1⟩, HZ⟩, HO⟩, -, -⟩
    ihave Ha2 := (pointsTo_share (PosShare.mem_left_op_right fullShare)).1 $$ Ha
    icases Ha2 with ⟨Hl, Hr⟩
    imodintro
    isplitl [Hl Hr H0 H1]
    · isplitl [Hl]; · iexact Hl
      isplitl [Hr]; · iexact Hr
      isplitl [H0]; · iexact H0
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held_eq, arrays_eq, arrAt_in0, arrAt_in1, arrAt_in2, V₁_v1, V₁_of_ne m ρ c main_arg0 (by decide), V₁_of_ne m ρ c main_v0 (by decide),
      V₁_of_ne m ρ c main_arg1 (by decide), V₁_of_ne m ρ c main_v2 (by decide)]
    iintro ⟨⟨Hl, Hr, H0, H1⟩, HO, -, HZ⟩
    ihave Ha := (pointsTo_share (PosShare.mem_left_op_right fullShare)).2 $$ [Hl Hr]
    · isplitl [Hl]; · iexact Hl
      iexact Hr
    imodintro
    isplitr [HO]
    · isplitl [Ha H0 H1]
      · isplitl [Ha]; · iexact Ha
        isplitl [H0]; · iexact H0
        iexact H1
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The buffers at the end: the slice has run. -/
abbrev V₂ (c : Dev nD) : Valuation τ sig (Elt F) := StableHlo.after hostOps1 (V₁ m ρ c)

/-- What the run ends in, buffer by buffer. -/
def QC : PUnit × MemSt nD τ sig (Elt F) → Prop := fun r =>
  ∀ c : Dev nD, r.2.mem ((c : Thread nD τ).loc main_v1) = V₂ m ρ c main_v1
    ∧ r.2.mem ((c : Thread nD τ).loc main_v2) = V₂ m ρ c main_v2
    ∧ r.2.mem ((c : Thread nD τ).loc main_arg0) = V₂ m ρ c main_arg0
    ∧ r.2.mem ((c : Thread nD τ).loc main_arg1) = V₂ m ρ c main_arg1

set_option backward.isDefEq.respectTransparency.types false in
/-- At the compiled mesh, for any float values, from any memory with zero counters: every weakly fair execution of
    @main on the TensorCores terminates, nothing faulting, and every final state holds the buffers at `V₂`. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (V₂ m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from
        Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v1) = V₂ m ρ c main_v1
      ∧ s.mem ((c : Thread nD τ).loc main_v2) = V₂ m ρ c main_v2
      ∧ s.mem ((c : Thread nD τ).loc main_arg0) = V₂ m ρ c main_arg0
      ∧ s.mem ((c : Thread nD τ).loc main_arg1) = V₂ m ρ c main_arg1)
    (hfin := fun c s' => by
      rw [held_eq]
      iintro ⟨⟨⟨Ha, -, H1⟩, ⟨Hb, H2⟩⟩, HSI⟩
      icombine HSI Ha gives %ha
      icombine HSI H1 gives %h1
      icombine HSI Hb gives %hb
      icombine HSI H2 gives %h2
      imodintro
      isplitr
      · ipureintro
        exact ⟨Buf.eq_of_forall_mem_univ h1, Buf.eq_of_forall_mem_univ h2, Buf.eq_of_forall_mem_univ ha, Buf.eq_of_forall_mem_univ hb⟩
      iexact HSI)
    (hQ := fun _ h => h)

end Cert.Kernel.Conv

end
-- ==== Proof.BitsEnds.lean ====
/-
  What the convolution program's buffers hold when it returns, read off the run: the two arguments as launched (no
  host operation writes them, and the region only reads the one it is given), the result array at what the region's
  write-backs made of it, and the second result at the slice of the input's last three time steps. The frame claim
  is the first two.
-/
import proofs.«173410_j35545149342129_2_alg».proof.Proof.BitsRun

set_option maxRecDepth 16384

noncomputable section

namespace Cert.Kernel.Conv

open Cert.Kernel Cert.Kernel.Gen
open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ) (ρ : Dev nD → PrngReg)

/-- The transpose writes the transposed taps only; -/
theorem not_written0 (b : Ref sig .tc) (hb : b ≠ main_v0) : ∀ op ∈ (hostOps0 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

/-- the slice writes the second result only. -/
theorem not_written1 (b : Ref sig .tc) (hb : b ≠ main_v2) : ∀ op ∈ (hostOps1 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

/-- The input array when the region is entered is the launched one, -/
theorem V_arg0 (c : Dev nD) : V m ρ c main_arg0 = m ((c : Thread nD τ).loc main_arg0) :=
  StableHlo.after_of_forall_not_mem (b := Proc.devRef .tc main_arg0) hostOps0 (V₀ m ρ c) (not_written0 main_arg0 (by decide))
/-- and so are the taps as given. -/
theorem V_arg1 (c : Dev nD) : V m ρ c main_arg1 = m ((c : Thread nD τ).loc main_arg1) :=
  StableHlo.after_of_forall_not_mem (b := Proc.devRef .tc main_arg1) hostOps0 (V₀ m ρ c) (not_written0 main_arg1 (by decide))

/-- The transposed taps the region reads. -/
theorem V_v0 (c : Dev nD) :
    V m ρ c main_v0 = transpose S4x2048 [1, 0] (m ((c : Thread nD τ).loc main_arg1)) Gen.transposes_S2048x4_S4x2048_1_0 := by
  show StableHlo.after hostOps0 (V₀ m ρ c) (Proc.devRef .tc main_v0) = _
  after_results

theorem end_arg0 (c : Dev nD) : V₂ m ρ c main_arg0 = m ((c : Thread nD τ).loc main_arg0) :=
  (StableHlo.after_of_forall_not_mem (b := Proc.devRef .tc main_arg0) hostOps1 (V₁ m ρ c) (not_written1 main_arg0 (by decide))).trans
    ((V₁_of_ne m ρ c main_arg0 (by decide)).trans (V_arg0 m ρ c))
theorem end_arg1 (c : Dev nD) : V₂ m ρ c main_arg1 = m ((c : Thread nD τ).loc main_arg1) :=
  (StableHlo.after_of_forall_not_mem (b := Proc.devRef .tc main_arg1) hostOps1 (V₁ m ρ c) (not_written1 main_arg1 (by decide))).trans
    ((V₁_of_ne m ρ c main_arg1 (by decide)).trans (V_arg1 m ρ c))
theorem end_v1 (c : Dev nD) : V₂ m ρ c main_v1 = outArr m ρ c :=
  (StableHlo.after_of_forall_not_mem (b := Proc.devRef .tc main_v1) hostOps1 (V₁ m ρ c) (not_written1 main_v1 (by decide))).trans
    (V₁_v1 m ρ c)
theorem end_v2 (c : Dev nD) :
    V₂ m ρ c main_v2 = extractStridedSlice S8x3x2048 ![0, 4093, 0] (m ((c : Thread nD τ).loc main_arg0)) Gen.slices_S8x4096x2048_S8x3x2048_0_4093_0 := by
  show StableHlo.after hostOps1 (V₁ m ρ c) (Proc.devRef .tc main_v2) = _
  after_results
  rw [V₁_of_ne m ρ c main_arg0 (by decide)]
  exact congrArg (fun x => extractStridedSlice S8x3x2048 ![0, 4093, 0] x Gen.slices_S8x4096x2048_S8x3x2048_0_4093_0) (V_arg0 m ρ c)

/-- THE FRAME: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.2.1.trans (end_arg0 m ρ c), (h c).2.2.2.trans (end_arg1 m ρ c)⟩) (run_main m ρ)

/-- The run with both results named: the convolution's array and the slice. -/
theorem run_results : θ_run defs (onTc (τ := τ) (main (F := F))) ⟨m, fun _ => 0, ρ⟩ (fun r => ∀ c : Dev nD,
      r.2.mem ((c.tc : Thread nD τ).loc main_v1) = outArr m ρ c
      ∧ r.2.mem ((c.tc : Thread nD τ).loc main_v2)
          = extractStridedSlice S8x3x2048 ![0, 4093, 0] (m ((c : Thread nD τ).loc main_arg0)) Gen.slices_S8x4096x2048_S8x3x2048_0_4093_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (end_v1 m ρ c), (h c).2.1.trans (end_v2 m ρ c),
    (h c).2.2.1.trans (end_arg0 m ρ c), (h c).2.2.2.trans (end_arg1 m ρ c)⟩) (run_main m ρ)

end Cert.Kernel.Conv

end
-- ==== Proof.IdealBody.lean ====
/-
  The convolution kernel's body as a Hoare triple, at any float instance.

  One grid point handles one tile of 512 time steps of one batch row, all 2048 channels. The body is handed
  the tile `x0` (1 x 512 x 2048), the eight time steps before it `x1` (1 x 8 x 2048; at the first tile of
  a row a block whose contents are masked to zero), and the four taps `x2` (4 x 2048). It stores twice into the
  output buffer: first the whole tile computed with cyclic shifts of the tile itself (right for every time
  step from the fourth on, wrong in the first three where the shift wraps round), then the first eight
  time steps again, computed from the true predecessors. So what the buffer holds at the end is the second
  store laid over the first: the canonical form of the two pieces, the later one first.
-/
import proofs.«173410_j35545149342129_2_alg».proof.Proof.Gen.KernelIdeal.Launch
import proofs.«173410_j35545149342129_2_alg».proof.Proof.Gen.KernelIdeal.Skeleton
import proofs.«173410_j35545149342129_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

/-- The whole tile. -/
abbrev rTile : Rect S1x512x2048 := Rect.unit (s := S1x512x2048) ![0, 0, 0] S1x512x2048.size Gen.inb_S1x512x2048_S1x512x2048_0_0_0
/-- The first eight time steps of the tile. -/
abbrev rHead : Rect S1x512x2048 := Rect.unit (s := S1x512x2048) ![0, 0, 0] S1x8x2048.size Gen.inb_S1x512x2048_S1x8x2048_0_0_0
/-- The whole block of predecessors. -/
abbrev rPrev : Rect S1x8x2048 := Rect.unit (s := S1x8x2048) ![0, 0, 0] S1x8x2048.size Gen.inb_S1x8x2048_S1x8x2048_0_0_0
/-- The whole block of taps. -/
abbrev rTaps : Rect S4x2048 := Rect.unit (s := S4x2048) ![0, 0] S4x2048.size Gen.inb_S4x2048_S4x2048_0_0

/-- The zero offsets of a rank-3 rectangle, however spelt. -/
theorem zero3 : (![0, 0, 0] : Fin 3 → ℕ) = fun _ => 0 := by funext a; fin_cases a <;> rfl
/-- The zero offsets of a rank-2 rectangle. -/
theorem zero2 : (![0, 0] : Fin 2 → ℕ) = fun _ => 0 := by funext a; fin_cases a <;> rfl

/-! ## What the body leaves in the output buffer -/

/-- The tile computed with cyclic shifts: the first store's value. -/
def bulk (x0 : Vec F S1x512x2048 .f32) (x2 : Vec F S4x2048 .f32) : Vec F S1x512x2048 .f32 :=
  k0_pay4 (View.ld x0 rTile) (View.ld x2 rTaps)

/-- The first eight time steps computed from the true predecessors: the second store's value. -/
def head (i : grid0.Coords) (x0 : Vec F S1x512x2048 .f32) (x1 : Vec F S1x8x2048 .f32) (x2 : Vec F S4x2048 .f32) : Vec F S1x8x2048 .f32 :=
  k0_pay1 (k0_pay2 (View.ld x0 rTile)) (k0_pay3 (View.ld x2 rTaps)) (k0_pay5 i (View.ld x1 rPrev)) (k0_pay6 (View.ld x2 rTaps))

/-- The output buffer after the body: the second store over the first. -/
def outTile (i : grid0.Coords) (x0 : Vec F S1x512x2048 .f32) (x1 : Vec F S1x8x2048 .f32) (x2 : Vec F S4x2048 .f32) : Vec F S1x512x2048 .f32 :=
  View.canon [⟨rHead, head i x0 x1 x2⟩, ⟨rTile, bulk x0 x2⟩]

/-- Every element of the buffer is stored to: the first store covers the whole tile. -/
theorem cover_out (p1 : Vec F S1x8x2048 .f32) (p0 : Vec F S1x512x2048 .f32) (y : S1x512x2048.Idx) :
    ∃ pc ∈ ([⟨rHead, p1⟩, ⟨rTile, p0⟩] : List (View.Piece (Elt F) S1x512x2048 .f32)), y ∈ pc.1.set := by
  exact ⟨⟨rTile, p0⟩, List.mem_cons_of_mem _ (List.mem_singleton_self _), View.mem_set_unit_zero zero3 Gen.inb_S1x512x2048_S1x512x2048_0_0_0 y⟩

/-! ## The triple -/

set_option maxHeartbeats 1000000 in
/-- The body on whole staging buffers — the three inputs at contents `x0`, `x1`, `x2`, the output at anything —
    runs to the continuation with the inputs as they were and the output at `outTile`. -/
theorem sound_kernel (c : Dev nD) (E : Set ℕ) (i : grid0.Coords)
    (arg2 : Memref sig .tc .vmem S1x512x2048 .f32) (harg2 : arg2.IsWhole) (arg3 : Memref sig .tc .vmem S1x8x2048 .f32) (harg3 : arg3.IsWhole)
    (arg4 : Memref sig .tc .vmem S4x2048 .f32) (harg4 : arg4.IsWhole) (arg5 : Memref sig .tc .vmem S1x512x2048 .f32) (harg5 : arg5.IsWhole)
    (x0 : Vec F S1x512x2048 .f32) (x1 : Vec F S1x8x2048 .f32) (x2 : Vec F S4x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile i x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _ _)

end Cert.KernelIdeal.Conv

end
-- ==== Proof.IdealData.lean ====
/-
  The convolution program's run: the host transpose of the taps, the kernel region over its 8 x 8 grid, the host
  slice of the last three time steps.

  The region has four windows. Windows 0 and 1 are both cut out of the SAME array, the input `x`: the current
  tile of 512 time steps, and the eight time steps before it. Both only read it, so the array's full share is
  split in two halves, one per window, when the region is entered, and the halves are joined again when it is
  left: between the two, nothing can write `x`. Window 2 is the transposed taps, window 3 the result.
  What each staging buffer holds after the body at a point: an input's its block of the array, the result's
  the tile the body computed from the three input blocks (`outTile`).
-/
import proofs.«173410_j35545149342129_2_alg».proof.Proof.IdealBody
import Idealize.ShloMosaic.Lib.Pipeline.Regions
import Idealize.ShloMosaic.Lib.Pipeline.Frame

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents along @main -/

/-- Core `c`'s buffers at launch; -/
abbrev V₀ (c : Dev nD) : Valuation τ sig (Elt F) := fun b => (s₀ m ρ).mem ((c : Dev nD), b)
/-- when the region is entered (the taps transposed); -/
abbrev Vv (c : Dev nD) : Valuation τ sig (Elt F) := StableHlo.after hostOps0 (V₀ m ρ c)
/-- the same, read at a TensorCore reference. -/
abbrev V (c : Dev nD) (b : Ref sig .tc) : Buf (Elt F) ((c : Thread nD τ).loc b) := Vv m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The proof data -/

/-- The region's data on core `c`: the arrays as the region finds them; after the body each input's buffer at its
    block and the result's at the computed tile; the invariant the scoped buffers no window stages (there are none);
    the input `x` held by halves, one per window on it; nothing owed. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => outTile (grid0.coords t) (iblk m ρ c 0 t) (iblk m ρ c 1 t) (iblk m ρ c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) :
    (dats m ρ 0 c).after 3 t = outTile (grid0.coords t) (iblk m ρ c 0 t) (iblk m ρ c 1 t) (iblk m ρ c 2 t) := by dsimp only [dats]

/-- An input's current staging buffer holds its block at every point, whether the pipeline fetched it there or kept
    it from the point before (the block index then has not moved): the two windows on the input `x`, -/
theorem before0_0 (c : Dev nD) (t : Fin cfg0.N) (d) : (dats m ρ 0 c).before 0 t d = iblk m ρ c 0 t :=
  ((dats m ρ 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m ρ 0 c).before 1 t d = iblk m ρ c 1 t :=
  ((dats m ρ 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- and the taps, fetched once. -/
theorem before0_2 (c : Dev nD) (t : Fin cfg0.N) (d) : (dats m ρ 0 c).before 2 t d = iblk m ρ c 2 t :=
  ((dats m ρ 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t))

/-- The body at any point: the inputs' buffers hold their blocks, so the body's triple applies; the invariant and
    the core's debts pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m ρ c 0 t) (iblk m ρ c 1 t) (iblk m ρ c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m ρ 0 c) (defs₀ (F := F)) Variants.none () Set.univ := fun t => by
  rw [bigSep_W0, bigSep_W0]
  exact sound_body m ρ c t

end Cert.KernelIdeal.Conv

end
-- ==== Proof.IdealRun.lean ====
/-
  The launch of the convolution program, by the library's theorem for an @main given as a list of segments:
  the host segment that transposes the taps, the kernel region, the host segment that slices the last three time
  steps of the input.

  Between segments the thread holds its five HBM buffers whole. At the region's entry the input array's full share
  is split in two halves, one for each of the two windows cut out of it; at the exit the halves — which still hold
  what the array held, since an input is never written — are joined again, and the result array comes back at what
  the write-backs made of it.
-/
import proofs.«173410_j35545149342129_2_alg».proof.Proof.IdealData

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-! ## The five HBM buffers, one by one -/

/-- The thread's unscoped buffers held whole at a valuation are its five HBM arrays' points-tos: the three that
    some window is cut from, then the two the region bypasses. -/
theorem held_eq (c : Dev nD) (W : Valuation τ sig (Elt F)) :
    (StableHlo.held (c : Thread nD τ) (Pipeline.ucRefs τ sig) W : sProp 𝕄)
      = iprop(((((c : Thread nD τ).loc main_arg0) ↦{fullShare} W main_arg0) ∗ (((c : Thread nD τ).loc main_v0) ↦{fullShare} W main_v0)
            ∗ (((c : Thread nD τ).loc main_v1) ↦{fullShare} W main_v1))
          ∗ ((((c : Thread nD τ).loc main_arg1) ↦{fullShare} W main_arg1) ∗ (((c : Thread nD τ).loc main_v2) ↦{fullShare} W main_v2))) := by
  rw [← Pipeline.unscopedBufs_held (Ix := Unit) (Name := ℕ) (U := UR sig nD τ) (Lvl := ℕ) c W,
    Pipeline.unscopedBufs_split₀ cfgs 0 winFacts₀0.arr_unscoped c, unscopedRest0_eq]
  unfold Pipeline.arrBufs
  rw [show Finset.univ.image (Pipeline.arrRef spec0) = {main_arg0, main_v0, main_v1} from by decide,
    bigSep_insert (by decide), bigSep_insert (by decide), bigSep_singleton]
  rfl

/-- The shares the region holds its arrays at: the input by halves, the taps and the result whole. -/
theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare := rfl
theorem share3 (c : Dev nD) : (dats m ρ 0 c).share 3 = fullShare := rfl

/-- The region's arrays, window by window. -/
theorem arrays_eq (c : Dev nD) (G : (w : Fin cfg0.W) → Buf (Elt F) ((cfg0.win w).arr.view.loc (c : Thread nD τ))) :
    ((dats m ρ 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)) := by
  have h : ((dats m ρ 0 c).arrays G : sProp 𝕄)
      = bigSep Finset.univ fun w : Fin 4 => ((((c : Thread nD τ).loc (Pipeline.arrRef spec0 w)) ↦{(dats m ρ 0 c).share w} G w : sProp 𝕄)) := by
    unfold Dat.arrays
    exact bigSep_congr fun w _ => by rw [(arr_whole0 w).set_eq_univ]
  rw [h, bigSep_W0, share0, share1, share2, share3]

/-! ## The segments -/

/-- What rides beside the buffers: the core owing nothing. -/
abbrev R (c : Dev nD) : sProp 𝕄 := iprop(∃ W, owes (c : Thread nD τ) (0 : CellTallies nD τ sig Unit) W)

/-- The transpose of the taps, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The result array after the region's write-backs. -/
abbrev outArr (c : Dev nD) : Buf (Elt F) ((c : Thread nD τ).loc main_v1) := (dats m ρ 0 c).arrAt 3 cfg0.N

/-- The buffers when the region is left: as it found them, the result array at what the write-backs made of it. -/
def V₁ (c : Dev nD) : Valuation τ sig (Elt F) :=
  Function.update (Vv m ρ c) (Proc.devRef .tc main_v1) (outArr m ρ c)

theorem V₁_v1 (c : Dev nD) : V₁ m ρ c main_v1 = outArr m ρ c := Function.update_self ..
theorem V₁_of_ne (c : Dev nD) (b : Ref sig .tc) (hb : b ≠ main_v1) : V₁ m ρ c b = Vv m ρ c b :=
  Function.update_of_ne (StableHlo.devRef_ne_of_ne hb) ..

/-- The slice of the input's last three time steps, over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m ρ) R

/-- An input array is never written: after every point it holds what the region found. -/
theorem arrAt_in0 (c : Dev nD) (n : ℕ) : (dats m ρ 0 c).arrAt 0 n = V m ρ c main_arg0 :=
  ((dats m ρ 0 c).arrAt_in 0 rfl n).trans (A_eq m ρ c 0)
theorem arrAt_in1 (c : Dev nD) (n : ℕ) : (dats m ρ 0 c).arrAt 1 n = V m ρ c main_arg0 :=
  ((dats m ρ 0 c).arrAt_in 1 rfl n).trans (A_eq m ρ c 1)
theorem arrAt_in2 (c : Dev nD) (n : ℕ) : (dats m ρ 0 c).arrAt 2 n = V m ρ c main_v0 :=
  ((dats m ρ 0 c).arrAt_in 2 rfl n).trans (A_eq m ρ c 2)

set_option backward.isDefEq.respectTransparency.types false in
/-- The region: entered from what the transpose left, the input's share split between the two windows on it;
    left with the halves joined and the result array at its final contents. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (Vv m ρ c) ∗ R c)
  post c := iprop(StableHlo.held (c : Thread nD τ) (Pipeline.ucRefs τ sig) (V₁ m ρ c) ∗ R c)
  X _ := iprop(emp)
  Y _ := iprop(emp)
  Z c := iprop((((c : Thread nD τ).loc main_arg1) ↦{fullShare} V m ρ c main_arg1) ∗ (((c : Thread nD τ).loc main_v2) ↦{fullShare} V m ρ c main_v2))
  hentry c := by
    rw [held_eq, arrays_eq]
    iintro ⟨⟨⟨⟨Ha, H0, H1⟩, HZ⟩, HO⟩, -, -⟩
    ihave Ha2 := (pointsTo_share (PosShare.mem_left_op_right fullShare)).1 $$ Ha
    icases Ha2 with ⟨Hl, Hr⟩
    imodintro
    isplitl [Hl Hr H0 H1]
    · isplitl [Hl]; · iexact Hl
      isplitl [Hr]; · iexact Hr
      isplitl [H0]; · iexact H0
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [held_eq, arrays_eq, arrAt_in0, arrAt_in1, arrAt_in2, V₁_v1, V₁_of_ne m ρ c main_arg0 (by decide), V₁_of_ne m ρ c main_v0 (by decide),
      V₁_of_ne m ρ c main_arg1 (by decide), V₁_of_ne m ρ c main_v2 (by decide)]
    iintro ⟨⟨Hl, Hr, H0, H1⟩, HO, -, HZ⟩
    ihave Ha := (pointsTo_share (PosShare.mem_left_op_right fullShare)).2 $$ [Hl Hr]
    · isplitl [Hl]; · iexact Hl
      iexact Hr
    imodintro
    isplitr [HO]
    · isplitl [Ha H0 H1]
      · isplitl [Ha]; · iexact Ha
        isplitl [H0]; · iexact H0
        iexact H1
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The buffers at the end: the slice has run. -/
abbrev V₂ (c : Dev nD) : Valuation τ sig (Elt F) := StableHlo.after hostOps1 (V₁ m ρ c)

/-- What the run ends in, buffer by buffer. -/
def QC : PUnit × MemSt nD τ sig (Elt F) → Prop := fun r =>
  ∀ c : Dev nD, r.2.mem ((c : Thread nD τ).loc main_v1) = V₂ m ρ c main_v1
    ∧ r.2.mem ((c : Thread nD τ).loc main_v2) = V₂ m ρ c main_v2
    ∧ r.2.mem ((c : Thread nD τ).loc main_arg0) = V₂ m ρ c main_arg0
    ∧ r.2.mem ((c : Thread nD τ).loc main_arg1) = V₂ m ρ c main_arg1

set_option backward.isDefEq.respectTransparency.types false in
/-- At the compiled mesh, for any float values, from any memory with zero counters: every weakly fair execution of
    @main on the TensorCores terminates, nothing faulting, and every final state holds the buffers at `V₂`. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (V₂ m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from
        Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v1) = V₂ m ρ c main_v1
      ∧ s.mem ((c : Thread nD τ).loc main_v2) = V₂ m ρ c main_v2
      ∧ s.mem ((c : Thread nD τ).loc main_arg0) = V₂ m ρ c main_arg0
      ∧ s.mem ((c : Thread nD τ).loc main_arg1) = V₂ m ρ c main_arg1)
    (hfin := fun c s' => by
      rw [held_eq]
      iintro ⟨⟨⟨Ha, -, H1⟩, ⟨Hb, H2⟩⟩, HSI⟩
      icombine HSI Ha gives %ha
      icombine HSI H1 gives %h1
      icombine HSI Hb gives %hb
      icombine HSI H2 gives %h2
      imodintro
      isplitr
      · ipureintro
        exact ⟨Buf.eq_of_forall_mem_univ h1, Buf.eq_of_forall_mem_univ h2, Buf.eq_of_forall_mem_univ ha, Buf.eq_of_forall_mem_univ hb⟩
      iexact HSI)
    (hQ := fun _ h => h)

end Cert.KernelIdeal.Conv

end
-- ==== Proof.IdealEnds.lean ====
/-
  What the convolution program's buffers hold when it returns, read off the run: the two arguments as launched (no
  host operation writes them, and the region only reads the one it is given), the result array at what the region's
  write-backs made of it, and the second result at the slice of the input's last three time steps. The frame claim
  is the first two.
-/
import proofs.«173410_j35545149342129_2_alg».proof.Proof.IdealRun

set_option maxRecDepth 16384

noncomputable section

namespace Cert.KernelIdeal.Conv

open Cert.KernelIdeal Cert.KernelIdeal.Gen
open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ) (ρ : Dev nD → PrngReg)

/-- The transpose writes the transposed taps only; -/
theorem not_written0 (b : Ref sig .tc) (hb : b ≠ main_v0) : ∀ op ∈ (hostOps0 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

/-- the slice writes the second result only. -/
theorem not_written1 (b : Ref sig .tc) (hb : b ≠ main_v2) : ∀ op ∈ (hostOps1 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

/-- The input array when the region is entered is the launched one, -/
theorem V_arg0 (c : Dev nD) : V m ρ c main_arg0 = m ((c : Thread nD τ).loc main_arg0) :=
  StableHlo.after_of_forall_not_mem (b := Proc.devRef .tc main_arg0) hostOps0 (V₀ m ρ c) (not_written0 main_arg0 (by decide))
/-- and so are the taps as given. -/
theorem V_arg1 (c : Dev nD) : V m ρ c main_arg1 = m ((c : Thread nD τ).loc main_arg1) :=
  StableHlo.after_of_forall_not_mem (b := Proc.devRef .tc main_arg1) hostOps0 (V₀ m ρ c) (not_written0 main_arg1 (by decide))

/-- The transposed taps the region reads. -/
theorem V_v0 (c : Dev nD) :
    V m ρ c main_v0 = transpose S4x2048 [1, 0] (m ((c : Thread nD τ).loc main_arg1)) Gen.transposes_S2048x4_S4x2048_1_0 := by
  show StableHlo.after hostOps0 (V₀ m ρ c) (Proc.devRef .tc main_v0) = _
  after_results

theorem end_arg0 (c : Dev nD) : V₂ m ρ c main_arg0 = m ((c : Thread nD τ).loc main_arg0) :=
  (StableHlo.after_of_forall_not_mem (b := Proc.devRef .tc main_arg0) hostOps1 (V₁ m ρ c) (not_written1 main_arg0 (by decide))).trans
    ((V₁_of_ne m ρ c main_arg0 (by decide)).trans (V_arg0 m ρ c))
theorem end_arg1 (c : Dev nD) : V₂ m ρ c main_arg1 = m ((c : Thread nD τ).loc main_arg1) :=
  (StableHlo.after_of_forall_not_mem (b := Proc.devRef .tc main_arg1) hostOps1 (V₁ m ρ c) (not_written1 main_arg1 (by decide))).trans
    ((V₁_of_ne m ρ c main_arg1 (by decide)).trans (V_arg1 m ρ c))
theorem end_v1 (c : Dev nD) : V₂ m ρ c main_v1 = outArr m ρ c :=
  (StableHlo.after_of_forall_not_mem (b := Proc.devRef .tc main_v1) hostOps1 (V₁ m ρ c) (not_written1 main_v1 (by decide))).trans
    (V₁_v1 m ρ c)
theorem end_v2 (c : Dev nD) :
    V₂ m ρ c main_v2 = extractStridedSlice S8x3x2048 ![0, 4093, 0] (m ((c : Thread nD τ).loc main_arg0)) Gen.slices_S8x4096x2048_S8x3x2048_0_4093_0 := by
  show StableHlo.after hostOps1 (V₁ m ρ c) (Proc.devRef .tc main_v2) = _
  after_results
  rw [V₁_of_ne m ρ c main_arg0 (by decide)]
  exact congrArg (fun x => extractStridedSlice S8x3x2048 ![0, 4093, 0] x Gen.slices_S8x4096x2048_S8x3x2048_0_4093_0) (V_arg0 m ρ c)

/-- THE FRAME: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.2.1.trans (end_arg0 m ρ c), (h c).2.2.2.trans (end_arg1 m ρ c)⟩) (run_main m ρ)

/-- The run with both results named: the convolution's array and the slice. -/
theorem run_results : θ_run defs (onTc (τ := τ) (main (F := F))) ⟨m, fun _ => 0, ρ⟩ (fun r => ∀ c : Dev nD,
      r.2.mem ((c.tc : Thread nD τ).loc main_v1) = outArr m ρ c
      ∧ r.2.mem ((c.tc : Thread nD τ).loc main_v2)
          = extractStridedSlice S8x3x2048 ![0, 4093, 0] (m ((c : Thread nD τ).loc main_arg0)) Gen.slices_S8x4096x2048_S8x3x2048_0_4093_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (end_v1 m ρ c), (h c).2.1.trans (end_v2 m ρ c),
    (h c).2.2.1.trans (end_arg0 m ρ c), (h c).2.2.2.trans (end_arg1 m ρ c)⟩) (run_main m ρ)

end Cert.KernelIdeal.Conv

end
-- ==== Proof.LibConvRows.lean ====
/-
  The layout operations of the convolution kernel's body, read at an index — for any element type.

  The body lays one row of the 4 x 2048 taps along every row of a tile (a slice of one row, two casts that change
  nothing, a broadcast down the rows); shifts a 512-row tile cyclically down by 1, 2 or 3 rows (right from the row of
  that number on); and, for the first eight rows, splices the last rows of the eight predecessors in front of the
  tile's first rows.
-/
import Idealize.ShloMosaic.Lib.Pipeline.Value
import Idealize.ShloMosaic.Lib.ValueIdx
import Idealize.ShloMosaic.Lib.KernelVsHost

noncomputable section

namespace Cert.ConvRows

open Idealize.ShloMosaic Idealize.ShloMosaic.ValueIdx

variable {α : Type}

abbrev R1 : Shape := ⟨2, ![1, 2048]⟩
abbrev RV : Shape := ⟨1, ![2048]⟩
abbrev T4 : Shape := ⟨2, ![4, 2048]⟩

/-- Row `o` of the taps, cut out as a one-row matrix, read at lane `d`. -/
theorem tapRow_apply (x : T4.Idx → α) (o : ℕ) (ho : o < 4) (hs : T4.Slices ![o, 0] R1) (d : Fin 2048) :
    extractStridedSlice R1 ![o, 0] x hs (ix2 (0 : Fin 1) d) = x (ix2 (⟨o, ho⟩ : Fin 4) d) :=
  extractStridedSlice_apply ![o, 0] x hs (ix2 (0 : Fin 1) d) (ix2 (⟨o, ho⟩ : Fin 4) d) (by
    intro a; fin_cases a <;> simp [ix2])

/-- A one-row matrix cast to a vector and back is itself. -/
theorem rowCast_apply (v : R1.Idx → α) (h1 : R1.ShapeCasts RV) (h2 : RV.ShapeCasts R1) (d : Fin 2048) :
    shapeCast R1 (shapeCast RV v h1) h2 (ix2 (0 : Fin 1) d) = v (ix2 (0 : Fin 1) d) := by
  refine (shapeCast_apply _ h2 (ix2 (0 : Fin 1) d) (ix1 d) (by
    rw [Shape.rowMajor_val_two, Shape.rowMajor_val_one]; show d.val = 0 * 2048 + d.val; omega)).trans ?_
  exact shapeCast_apply _ h1 (ix1 d) (ix2 (0 : Fin 1) d) (by
    rw [Shape.rowMajor_val_two, Shape.rowMajor_val_one]; show 0 * 2048 + d.val = d.val; omega)

/-- A one-row matrix broadcast down `N` rows reads its lane `d` in every row. -/
theorem rowBroadcast_apply {N : ℕ} (v : R1.Idx → α) (hb : R1.Broadcasts ⟨2, ![N, 2048]⟩) (r : Fin N) (d : Fin 2048) :
    broadcastTo ⟨2, ![N, 2048]⟩ v hb (ix2 r d) = v (ix2 (0 : Fin 1) d) :=
  broadcastTo_apply v hb (ix2 r d) (ix2 (0 : Fin 1) d) (by
    intro a; fin_cases a <;> simp [ix2])

/-- Row `o` of the taps laid along every row of an `N`-row tile: the tap of lane `d` everywhere. -/
theorem tapRows_apply {N : ℕ} (x : T4.Idx → α) (o : ℕ) (ho : o < 4) (hs : T4.Slices ![o, 0] R1)
    (h1 : R1.ShapeCasts RV) (h2 : RV.ShapeCasts R1) (hb : R1.Broadcasts ⟨2, ![N, 2048]⟩) (r : Fin N) (d : Fin 2048) :
    broadcastTo ⟨2, ![N, 2048]⟩ (shapeCast R1 (shapeCast RV (extractStridedSlice R1 ![o, 0] x hs) h1) h2) hb (ix2 r d)
      = x (ix2 (⟨o, ho⟩ : Fin 4) d) :=
  (rowBroadcast_apply _ hb r d).trans ((rowCast_apply _ h1 h2 d).trans (tapRow_apply x o ho hs d))

/-- A 512-row tile shifted cyclically down by `s` rows reads, from row `s` on, the row `s` above. -/
theorem shiftDown_apply (x : (⟨2, ![512, 2048]⟩ : Shape).Idx → α) (sb : BitVec 32) (s : ℕ) (hsb : sb.toNat = s) (hs : s < 512)
    (h : (⟨2, ![512, 2048]⟩ : Shape).Rotates 0 none) (r : Fin 512) (d : Fin 2048) (hr : s ≤ r.val) :
    dynamicRotate 0 sb none x h (ix2 r d) = x (ix2 (⟨r.val - s, by omega⟩ : Fin 512) d) :=
  dynamicRotate_apply (0 : Fin 2) sb x h (ix2 r d) (ix2 (⟨r.val - s, by omega⟩ : Fin 512) d) (by
    intro b
    match b with
    | ⟨0, _⟩ =>
      show r.val - s = (r.val + 512 - sb.toNat % 512) % 512
      rw [hsb, Nat.mod_eq_of_lt hs, show r.val + 512 - s = (r.val - s) + 512 by omega, Nat.add_mod_right, Nat.mod_eq_of_lt (by omega)]
    | ⟨1, _⟩ => rfl)

/-- The first `n` rows of a taller matrix. -/
theorem topRows_apply {M n : ℕ} (x : (⟨2, ![M, 2048]⟩ : Shape).Idx → α) (hs : (⟨2, ![M, 2048]⟩ : Shape).Slices ![0, 0] ⟨2, ![n, 2048]⟩)
    (r : Fin n) (hr : r.val < M) (d : Fin 2048) :
    extractStridedSlice ⟨2, ![n, 2048]⟩ ![0, 0] x hs (ix2 r d) = x (ix2 (⟨r.val, hr⟩ : Fin M) d) :=
  extractStridedSlice_apply ![0, 0] x hs (ix2 r d) (ix2 (⟨r.val, hr⟩ : Fin M) d) (by
    intro a; fin_cases a <;> simp [ix2])

/-- The last `n₁` of eight predecessor rows spliced in front of the first `n₂` rows of the tile (`n₁ + n₂ = 8`): row `r`
    of the result is predecessor row `o + r` while `r < n₁` (`o + n₁ = 8`), and the tile's row `r - n₁` after. -/
theorem splice_apply (n₁ n₂ o : ℕ) (hn : n₁ + n₂ = 8) (ho : o + n₁ = 8)
    (hm : (⟨2, ![8, 2048]⟩ : Shape).Idx → α) (x : (⟨2, ![512, 2048]⟩ : Shape).Idx → α)
    (hs₁ : (⟨2, ![8, 2048]⟩ : Shape).Slices ![o, 0] ⟨2, ![n₁, 2048]⟩)
    (hs₂ : (⟨2, ![512, 2048]⟩ : Shape).Slices ![0, 0] ⟨2, ![n₂, 2048]⟩)
    (hc : Shape.Concatenates [(⟨2, ![n₁, 2048]⟩ : Shape), ⟨2, ![n₂, 2048]⟩] ⟨2, ![8, 2048]⟩ 0) (r : Fin 8) (d : Fin 2048) :
    concatenate ⟨2, ![8, 2048]⟩ 0 [⟨⟨2, ![n₁, 2048]⟩, extractStridedSlice ⟨2, ![n₁, 2048]⟩ ![o, 0] hm hs₁⟩,
        ⟨⟨2, ![n₂, 2048]⟩, extractStridedSlice ⟨2, ![n₂, 2048]⟩ ![0, 0] x hs₂⟩] hc (ix2 r d)
      = if h : r.val < n₁ then hm (ix2 (⟨o + r.val, by omega⟩ : Fin 8) d) else x (ix2 (⟨r.val - n₁, by omega⟩ : Fin 512) d) := by
  by_cases h : r.val < n₁
  · rw [dif_pos h]
    refine (concatenate_pair_apply_left (t := ⟨2, ![8, 2048]⟩) (s₁ := ⟨2, ![n₁, 2048]⟩) (s₂ := ⟨2, ![n₂, 2048]⟩) (0 : Fin 2) _ _ hc (ix2 r d) rfl (ix2 (⟨r.val, h⟩ : Fin n₁) d) (by
      intro b; fin_cases b <;> simp [ix2])).trans ?_
    exact extractStridedSlice_apply ![o, 0] hm hs₁ (ix2 (⟨r.val, h⟩ : Fin n₁) d) (ix2 (⟨o + r.val, by omega⟩ : Fin 8) d) (by
      intro a; fin_cases a <;> simp [ix2])
  · rw [dif_neg h]
    refine (concatenate_pair_apply_right (t := ⟨2, ![8, 2048]⟩) (s₁ := ⟨2, ![n₁, 2048]⟩) (s₂ := ⟨2, ![n₂, 2048]⟩) (0 : Fin 2) _ _ hc (ix2 r d) rfl rfl (ix2 (⟨r.val - n₁, by omega⟩ : Fin n₂) d) (by
      intro b hb; fin_cases b
      · exact absurd rfl hb
      · simp [ix2]) (by simp [ix2]; omega)).trans ?_
    exact extractStridedSlice_apply ![0, 0] x hs₂ (ix2 (⟨r.val - n₁, by omega⟩ : Fin n₂) d) (ix2 (⟨r.val - n₁, by omega⟩ : Fin 512) d) (by
      intro a; fin_cases a <;> simp [ix2])

/-- A tile with a leading unit axis read as a matrix, and a matrix given the leading unit axis back. -/
theorem dropLead_apply {N : ℕ} (v : (⟨3, ![1, N, 2048]⟩ : Shape).Idx → α) (h : (⟨3, ![1, N, 2048]⟩ : Shape).ShapeCasts ⟨2, ![N, 2048]⟩)
    (r : Fin N) (d : Fin 2048) : shapeCast ⟨2, ![N, 2048]⟩ v h (ix2 r d) = v (ix3 (0 : Fin 1) r d) :=
  shapeCast_apply v h (ix2 r d) (ix3 (0 : Fin 1) r d) (by
    rw [Shape.rowMajor_val_two, Shape.rowMajor_val_three]
    show (0 * N + r.val) * 2048 + d.val = r.val * 2048 + d.val; omega)

theorem addLead_apply {N : ℕ} (v : (⟨2, ![N, 2048]⟩ : Shape).Idx → α) (h : (⟨2, ![N, 2048]⟩ : Shape).ShapeCasts ⟨3, ![1, N, 2048]⟩)
    (r : Fin N) (d : Fin 2048) : shapeCast ⟨3, ![1, N, 2048]⟩ v h (ix3 (0 : Fin 1) r d) = v (ix2 r d) :=
  shapeCast_apply v h (ix3 (0 : Fin 1) r d) (ix2 r d) (by
    rw [Shape.rowMajor_val_two, Shape.rowMajor_val_three]
    show r.val * 2048 + d.val = (0 * N + r.val) * 2048 + d.val; omega)

end Cert.ConvRows

end
-- ==== Proof.IdealTile.lean ====
/-
  The convolution kernel's tile, element by element, at any float instance.

  Row `r`, lane `d` of the tile the body leaves is the four-tap sum
      t3·p0 + t2·p1 + t1·p2 + t0·p3,       tj the tap of lane d in row j of the taps,
  where pj is the input `j` rows above `r`: row `r - j` of the tile itself when `j ≤ r`, else row `8 - j + r` of the eight
  predecessor rows — which read as zero at the first tile of a batch row. From the eighth row on the value is the
  first store's (cyclic shifts that have not wrapped); in the first eight rows it is the second store's, laid over.
-/
import proofs.«173410_j35545149342129_2_alg».proof.Proof.IdealBody
import proofs.«173410_j35545149342129_2_alg».proof.Proof.LibConvRows

set_option maxRecDepth 16384

noncomputable section

namespace Cert.KernelIdeal.Conv

open Cert.KernelIdeal Cert.KernelIdeal.Gen Cert.ConvRows
open Idealize.ShloMosaic Idealize.ShloMosaic.ValueIdx

variable {F : FTy → Type} [FloatOps F]

/-- The four-tap sum in the body's order: newest input first. -/
def tap4 (t3 p0 t2 p1 t1 p2 t0 p3 : F .f32) : F .f32 :=
  FloatOps.addf (FloatOps.addf (FloatOps.addf (FloatOps.mulf t3 p0) (FloatOps.mulf t2 p1)) (FloatOps.mulf t1 p2)) (FloatOps.mulf t0 p3)

/-- The taps as the body reads them (a cast to their own shape). -/
theorem taps_self (x2 : Vec F S4x2048 .f32) (k : Fin 4) (d : Fin 2048) : k0_pay3 x2 (ix2 k d) = x2 (ix2 k d) := by
  unfold k0_pay3
  exact congrFun (shapeCast_self x2 _) _

/-- The tile as the body reads it: the leading unit axis dropped. -/
theorem tile_rows (x0 : Vec F S1x512x2048 .f32) (r : Fin 512) (d : Fin 2048) : k0_pay2 x0 (ix2 r d) = x0 (ix3 (0 : Fin 1) r d) := by
  unfold k0_pay2
  exact dropLead_apply x0 _ r d

/-- The first store's value from the third row on: no cyclic shift has wrapped. -/
theorem bulk_apply (x0 : Vec F S1x512x2048 .f32) (x2 : Vec F S4x2048 .f32) (r : Fin 512) (d : Fin 2048) (hr : 3 ≤ r.val) :
    bulk x0 x2 (ix3 (0 : Fin 1) r d)
      = tap4 (x2 (ix2 (3 : Fin 4) d)) (x0 (ix3 (0 : Fin 1) r d))
          (x2 (ix2 (2 : Fin 4) d)) (x0 (ix3 (0 : Fin 1) (⟨r.val - 1, by omega⟩ : Fin 512) d))
          (x2 (ix2 (1 : Fin 4) d)) (x0 (ix3 (0 : Fin 1) (⟨r.val - 2, by omega⟩ : Fin 512) d))
          (x2 (ix2 (0 : Fin 4) d)) (x0 (ix3 (0 : Fin 1) (⟨r.val - 3, by omega⟩ : Fin 512) d)) := by
  unfold bulk
  rw [View.ld_unit_zero zero3, View.ld_unit_zero zero2]
  unfold k0_pay4
  dsimp only
  refine (addLead_apply _ _ r d).trans ?_
  unfold tap4
  refine congrArg₂ FloatOps.addf (congrArg₂ FloatOps.addf (congrArg₂ FloatOps.addf (congrArg₂ FloatOps.mulf ?_ ?_) (congrArg₂ FloatOps.mulf ?_ ?_))
    (congrArg₂ FloatOps.mulf ?_ ?_)) (congrArg₂ FloatOps.mulf ?_ ?_)
  · exact (tapRows_apply _ 3 (by omega) _ _ _ _ r d).trans (taps_self x2 3 d)
  · exact tile_rows x0 r d
  · exact (tapRows_apply _ 2 (by omega) _ _ _ _ r d).trans (taps_self x2 2 d)
  · exact (shiftDown_apply _ 1#32 1 rfl (by omega) _ r d (by omega)).trans (tile_rows x0 _ d)
  · exact (tapRows_apply _ 1 (by omega) _ _ _ _ r d).trans (taps_self x2 1 d)
  · exact (shiftDown_apply _ 2#32 2 rfl (by omega) _ r d (by omega)).trans (tile_rows x0 _ d)
  · exact (tapRows_apply _ 0 (by omega) _ _ _ _ r d).trans (taps_self x2 0 d)
  · exact (shiftDown_apply _ 3#32 3 rfl (by omega) _ r d (by omega)).trans (tile_rows x0 _ d)

/-- The eight predecessor rows as the body uses them: zero at the first tile of a batch row, else as fetched. -/
def prevRows (i : grid0.Coords) (x1 : Vec F S1x8x2048 .f32) : FVec F S8x2048 .f32 := k0_pay5 i x1

/-- The input `j` rows above row `r < 8` of the tile (`1 ≤ j ≤ 3`, `o = 8 - j`). -/
def above (i : grid0.Coords) (x0 : Vec F S1x512x2048 .f32) (x1 : Vec F S1x8x2048 .f32) (j o : ℕ) (hj : o + j = 8) (r : Fin 8) (d : Fin 2048) : F .f32 :=
  if h : r.val < j then prevRows i x1 (ix2 (⟨o + r.val, by omega⟩ : Fin 8) d) else x0 (ix3 (0 : Fin 1) (⟨r.val - j, by omega⟩ : Fin 512) d)

/-- The second store's value: the first eight rows from the true predecessors. -/
theorem head_apply (i : grid0.Coords) (x0 : Vec F S1x512x2048 .f32) (x1 : Vec F S1x8x2048 .f32) (x2 : Vec F S4x2048 .f32) (r : Fin 8) (d : Fin 2048) :
    head i x0 x1 x2 (ix3 (0 : Fin 1) r d)
      = tap4 (x2 (ix2 (3 : Fin 4) d)) (x0 (ix3 (0 : Fin 1) (⟨r.val, by omega⟩ : Fin 512) d))
          (x2 (ix2 (2 : Fin 4) d)) (above i x0 x1 1 7 rfl r d)
          (x2 (ix2 (1 : Fin 4) d)) (above i x0 x1 2 6 rfl r d)
          (x2 (ix2 (0 : Fin 4) d)) (above i x0 x1 3 5 rfl r d) := by
  unfold head
  rw [View.ld_unit_zero zero3, View.ld_unit_zero zero2, View.ld_unit_zero zero3]
  unfold k0_pay1 k0_pay6
  dsimp only
  refine (addLead_apply _ _ r d).trans ?_
  unfold tap4
  refine congrArg₂ FloatOps.addf (congrArg₂ FloatOps.addf (congrArg₂ FloatOps.addf (congrArg₂ FloatOps.mulf ?_ ?_) (congrArg₂ FloatOps.mulf ?_ ?_))
    (congrArg₂ FloatOps.mulf ?_ ?_)) (congrArg₂ FloatOps.mulf ?_ ?_)
  · exact (tapRows_apply _ 3 (by omega) _ _ _ _ r d).trans (taps_self x2 3 d)
  · exact (topRows_apply _ _ r (by omega) d).trans (tile_rows x0 _ d)
  · exact (tapRows_apply _ 2 (by omega) _ _ _ _ r d).trans (taps_self x2 2 d)
  · refine (splice_apply 1 7 7 rfl rfl _ _ _ _ _ r d).trans ?_
    unfold above prevRows
    split
    · rfl
    · exact tile_rows x0 _ d
  · exact (tapRows_apply _ 1 (by omega) _ _ _ _ r d).trans (taps_self x2 1 d)
  · refine (splice_apply 2 6 6 rfl rfl _ _ _ _ _ r d).trans ?_
    unfold above prevRows
    split
    · rfl
    · exact tile_rows x0 _ d
  · exact (tapRows_apply _ 0 (by omega) _ _ _ _ r d).trans (taps_self x2 0 d)
  · refine (splice_apply 3 5 5 rfl rfl _ _ _ _ _ r d).trans ?_
    unfold above prevRows
    split
    · rfl
    · exact tile_rows x0 _ d

/-- In the first eight rows the tile is the second store's value; -/
theorem outTile_head (i : grid0.Coords) (x0 : Vec F S1x512x2048 .f32) (x1 : Vec F S1x8x2048 .f32) (x2 : Vec F S4x2048 .f32) (r : Fin 8) (d : Fin 2048) :
    outTile i x0 x1 x2 (ix3 (0 : Fin 1) (⟨r.val, by omega⟩ : Fin 512) d) = head i x0 x1 x2 (ix3 (0 : Fin 1) r d) := by
  unfold outTile
  have e : rHead.emb (ix3 (0 : Fin 1) r d) = ix3 (0 : Fin 1) (⟨r.val, by omega⟩ : Fin 512) d := by
    funext a; apply Fin.ext; rw [Rect.emb_apply]; fin_cases a <;> simp [ix3]
  rw [← e]
  exact View.canon_cons_emb rHead _ _ _

/-- from the eighth row on, the first store's. -/
theorem outTile_bulk (i : grid0.Coords) (x0 : Vec F S1x512x2048 .f32) (x1 : Vec F S1x8x2048 .f32) (x2 : Vec F S4x2048 .f32) (r : Fin 512) (d : Fin 2048)
    (hr : 8 ≤ r.val) : outTile i x0 x1 x2 (ix3 (0 : Fin 1) r d) = bulk x0 x2 (ix3 (0 : Fin 1) r d) := by
  unfold outTile
  rw [View.canon_cons_of_not_mem _ _ (by
    rw [Rect.mem_set_unit]; intro h; have := (h 1).2; simp [ix3] at this; omega)]
  exact congrFun (View.canon_unit_zero zero3 _ _) _

end Cert.KernelIdeal.Conv

end
-- ==== Proof.ConvSpec.lean ====
/-
  The causal depthwise convolution with four taps, as one function of the input and the taps over the extended reals.

  Channel `d` of the output at time `T` of batch row `b` is
      w(d,3)·x(b,T,d) + w(d,2)·x(b,T-1,d) + w(d,1)·x(b,T-2,d) + w(d,0)·x(b,T-3,d),
  a time before the start of the row reading as zero. The two programs add the four products in opposite orders
  and write each product with its factors swapped; sums and products of extended reals are commutative and
  associative without any finiteness, so the two are equal whatever the inputs hold.
-/
import Idealize.ShloMosaic.PureOps.Ideal
import Idealize.ShloMosaic.Lib.ValueIdx

noncomputable section

namespace Cert.ConvSpec

open Idealize.ShloMosaic Idealize.ShloMosaic.ValueIdx

abbrev SX : Shape := ⟨3, ![8, 4096, 2048]⟩
abbrev SW : Shape := ⟨2, ![2048, 4]⟩

/-- The input `j` time steps before time `T`: zero before the row starts. -/
def past (x : SX.Idx → EReal) (b : Fin 8) (T : Fin 4096) (d : Fin 2048) (j : ℕ) : EReal :=
  if h : j ≤ T.val then x (ix3 b ⟨T.val - j, by omega⟩ d) else 0

/-- The convolution at `(b, T, d)`, the newest input first. -/
def convAt (x : SX.Idx → EReal) (w : SW.Idx → EReal) (b : Fin 8) (T : Fin 4096) (d : Fin 2048) : EReal :=
  w (ix2 d 3) * past x b T d 0 + w (ix2 d 2) * past x b T d 1 + w (ix2 d 1) * past x b T d 2 + w (ix2 d 0) * past x b T d 3

/-- The whole output array. -/
def conv (x : SX.Idx → EReal) (w : SW.Idx → EReal) : SX.Idx → EReal := fun i => convAt x w (i 0) (i 1) (i 2)

theorem conv_ix3 (x : SX.Idx → EReal) (w : SW.Idx → EReal) (b : Fin 8) (T : Fin 4096) (d : Fin 2048) :
    conv x w (ix3 b T d) = convAt x w b T d := rfl

/-- The same four products added oldest first onto a zero, each with its factors the other way round. -/
theorem oldest_first (p0 p1 p2 p3 w0 w1 w2 w3 : EReal) :
    0 + p3 * w0 + p2 * w1 + p1 * w2 + p0 * w3 = w3 * p0 + w2 * p1 + w1 * p2 + w0 * p3 := by
  rw [zero_add, mul_comm p3, mul_comm p2, mul_comm p1, mul_comm p0]
  abel

end Cert.ConvSpec

end
-- ==== Proof.IdealValue.lean ====
/-
  The idealized kernel's result array is the convolution of its arguments, over the extended reals.

  Grid point `t = (b, s)` handles batch row `b`, time steps `512·s … 512·s + 511`. Its three input blocks are that tile
  of the input, the eight time steps before it (block `64·s − 1` of the input cut in blocks of eight rows; at `s = 0`
  a block the body masks to zero), and the whole transposed taps. So the input `j` rows above row `r` of the tile is
  the input at time `512·s + r − j` of row `b` whether it lies in the tile or among the predecessors, and zero when
  that time is negative — which is the convolution's own convention. The result's blocks tile its array, each time
  step in exactly the tile `s = T / 512`.
-/
import proofs.«173410_j35545149342129_2_alg».proof.Proof.IdealEnds
import proofs.«173410_j35545149342129_2_alg».proof.Proof.IdealTile
import proofs.«173410_j35545149342129_2_alg».proof.Proof.ConvSpec
import Idealize.ShloMosaic.PureOps.Ideal.Laws

set_option maxRecDepth 16384

noncomputable section

namespace Cert.KernelIdeal.Conv

open Cert.KernelIdeal Cert.KernelIdeal.Gen Cert.ConvRows Cert.ConvSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- At the ideal instance the four-tap sum is the sum of four products of extended reals. -/
theorem tap4_ideal (t3 p0 t2 p1 t1 p2 t0 p3 : Ideal .f32) :
    tap4 (F := Ideal) t3 p0 t2 p1 t1 p2 t0 p3 = t3 * p0 + t2 * p1 + t1 * p2 + t0 * p3 := rfl

/-- The printed index maps, decided over the grid: the tile and the result move together, batch row by batch row and
    tile by tile; the predecessors' block of eight rows is the one just before the tile (none at the first tile);
    the taps' block never moves; and the body's own tile counter is the result's tile index. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 3) = win0_3.index t (0 : Fin 3) ∧ win0_1.index t (2 : Fin 3) = 0
    ∧ (win0_3.index t (1 : Fin 3) = 0 ∨ win0_1.index t (1 : Fin 3) + 1 = 64 * win0_3.index t (1 : Fin 3))
    ∧ win0_3.index t (0 : Fin 3) < 8 ∧ win0_3.index t (1 : Fin 3) < 8
    ∧ ((grid0.coords t) (1 : Fin 2)).val = win0_3.index t (1 : Fin 3)
    ∧ win0_2.index t (0 : Fin 2) = 0 ∧ win0_2.index t (1 : Fin 2) = 0 :=
  (by decide +kernel : ∀ t : Fin grid0.N, _)

/-- Every (batch row, tile) is some point's. -/
theorem idx_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- The body's tile counter is zero exactly at the first tile. -/
theorem first_tile : ∀ k : Fin 8, (Scalar.cmpi .eq (BitVec.ofNat 32 k.val) 0#32 = 1) ↔ k.val = 0 := by decide

/-! ## The three input blocks at a point, read off the arrays -/

/-- The tile: time step `512·s + r` of batch row `b`. -/
theorem tile_eq (c : Dev nD) (t : Fin cfg0.N) (b : Fin 8) (hb : b.val = win0_3.index t (0 : Fin 3)) (r : Fin 512) (d : Fin 2048)
    (T : Fin 4096) (hT : T.val = win0_3.index t (1 : Fin 3) * 512 + r.val) :
    iblk m ρ c 0 t (ix3 (0 : Fin 1) r d) = V m ρ c main_arg0 (ix3 b T d) := by
  obtain ⟨e0, e1, e2, -⟩ := idx_facts t
  show V m ρ c main_arg0 (((cfg0.win 0).blk t).view.emb (ix3 (0 : Fin 1) r d)) = _
  refine congrArg (V m ρ c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = T.val; omega
  | ⟨2, _⟩ => show win0_0.index t (2 : Fin 3) * 2048 + 1 * d.val = d.val; omega

/-- The predecessors, past the first tile: time step `512·s − 8 + r`. -/
theorem prev_eq (c : Dev nD) (t : Fin cfg0.N) (b : Fin 8) (hb : b.val = win0_3.index t (0 : Fin 3)) (r : Fin 8) (d : Fin 2048)
    (hs : win0_3.index t (1 : Fin 3) ≠ 0) (T : Fin 4096) (hT : T.val + 8 = win0_3.index t (1 : Fin 3) * 512 + r.val) :
    iblk m ρ c 1 t (ix3 (0 : Fin 1) r d) = V m ρ c main_arg0 (ix3 b T d) := by
  obtain ⟨-, -, -, -, e4, e5, e6, -⟩ := idx_facts t
  show V m ρ c main_arg0 (((cfg0.win 1).blk t).view.emb (ix3 (0 : Fin 1) r d)) = _
  refine congrArg (V m ρ c main_arg0) (funext fun a => Fin.ext ?_)
  match a with
  | ⟨0, _⟩ => show win0_1.index t (0 : Fin 3) * 1 + 1 * 0 = b.val; omega
  | ⟨1, _⟩ => show win0_1.index t (1 : Fin 3) * 8 + 1 * r.val = T.val; omega
  | ⟨2, _⟩ => show win0_1.index t (2 : Fin 3) * 2048 + 1 * d.val = d.val; omega

/-- The taps: the transposed array whole, so tap `k` of lane `d` is the given array's entry `(d, k)`. -/
theorem taps_eq (c : Dev nD) (t : Fin cfg0.N) (k : Fin 4) (d : Fin 2048) :
    iblk m ρ c 2 t (ix2 k d) = m ((c : Thread nD τ).loc main_arg1) (ix2 d k) := by
  obtain ⟨-, -, -, -, -, -, -, -, -, -, e10, e11⟩ := idx_facts t
  have h : iblk m ρ c 2 t (ix2 k d) = V m ρ c main_v0 (ix2 k d) := by
    show V m ρ c main_v0 (((cfg0.win 2).blk t).view.emb (ix2 k d)) = _
    refine congrArg (V m ρ c main_v0) (funext fun a => Fin.ext ?_)
    match a with
    | ⟨0, _⟩ => show win0_2.index t (0 : Fin 2) * 4 + 1 * k.val = k.val; omega
    | ⟨1, _⟩ => show win0_2.index t (1 : Fin 2) * 2048 + 1 * d.val = d.val; omega
  rw [h, V_v0]
  exact transpose_apply [1, 0] _ _ (ix2 k d) (ix2 d k) (by intro a; fin_cases a <;> rfl)

/-! ## What point `t` writes back is its block of the convolution -/

theorem past_of_le (x : SX.Idx → EReal) (b : Fin 8) (T : Fin 4096) (d : Fin 2048) (j : ℕ) (h : j ≤ T.val) :
    past x b T d j = x (ix3 b (⟨T.val - j, by omega⟩ : Fin 4096) d) := dif_pos h
theorem past_of_lt (x : SX.Idx → EReal) (b : Fin 8) (T : Fin 4096) (d : Fin 2048) (j : ℕ) (h : T.val < j) :
    past x b T d j = 0 := dif_neg (by omega)

/-- The predecessor rows as the body uses them: zero at the first tile of a batch row, else as fetched. -/
theorem prevRows_apply (i : grid0.Coords) (x1 : Vec Ideal S1x8x2048 .f32) (r : Fin 8) (d : Fin 2048) :
    prevRows i x1 (ix2 r d) = if (i 1).val = 0 then (0 : EReal) else x1 (ix3 (0 : Fin 1) r d) := by
  unfold prevRows k0_pay5
  dsimp only
  unfold Scalar.select
  by_cases h : (i 1).val = 0
  · rw [if_pos ((first_tile (i 1)).2 h), if_pos h]
    exact Ideal.ofBits_zero_f32
  · rw [if_neg (mt (first_tile (i 1)).1 h), if_neg h]
    exact dropLead_apply x1 _ r d

/-- The input `j` rows above row `r < 8` of point `t`'s tile is the convolution's input `j` steps before that time:
    in the tile, among the predecessors, or before the row's start. -/
theorem above_eq (c : Dev nD) (t : Fin cfg0.N) (b : Fin 8) (hb : b.val = win0_3.index t (0 : Fin 3)) (r : Fin 8) (d : Fin 2048)
    (T : Fin 4096) (hT : T.val = win0_3.index t (1 : Fin 3) * 512 + r.val) (j o : ℕ) (hj : o + j = 8) (hj1 : 1 ≤ j) (hj3 : j ≤ 3) :
    above (grid0.coords t) (iblk m ρ c 0 t) (iblk m ρ c 1 t) j o hj r d = past (V m ρ c main_arg0) b T d j := by
  obtain ⟨-, -, -, -, -, -, -, -, e8, e9, -⟩ := idx_facts t
  unfold above
  by_cases h : r.val < j
  · rw [dif_pos h, prevRows_apply]
    by_cases hs : win0_3.index t (1 : Fin 3) = 0
    · rw [if_pos (e9.trans hs), past_of_lt _ _ _ _ _ (by omega)]
    · rw [if_neg (fun h0 => hs (e9.symm.trans h0)), past_of_le _ _ _ _ _ (by omega)]
      exact prev_eq m ρ c t b hb _ d hs _ (by show T.val - j + 8 = win0_3.index t (1 : Fin 3) * 512 + (o + r.val); omega)
  · rw [dif_neg h, past_of_le _ _ _ _ _ (by omega)]
    exact tile_eq m ρ c t b hb _ d _ (by show T.val - j = win0_3.index t (1 : Fin 3) * 512 + (r.val - j); omega)

/-- Row `r − j` of point `t`'s tile is the convolution's input `j` steps before time `512·s + r`. -/
theorem tile_past (c : Dev nD) (t : Fin cfg0.N) (r : Fin 512) (d : Fin 2048) (j : ℕ) (hj : j ≤ r.val)
    (e7 : win0_3.index t (0 : Fin 3) < 8) (hrj : r.val - j < 512) (hT : win0_3.index t (1 : Fin 3) * 512 + r.val < 4096) :
    iblk m ρ c 0 t (ix3 (0 : Fin 1) (⟨r.val - j, hrj⟩ : Fin 512) d)
      = past (V m ρ c main_arg0) (⟨win0_3.index t (0 : Fin 3), e7⟩ : Fin 8) (⟨win0_3.index t (1 : Fin 3) * 512 + r.val, hT⟩ : Fin 4096) d j := by
  rw [past_of_le _ _ _ _ _ (by show j ≤ win0_3.index t (1 : Fin 3) * 512 + r.val; omega)]
  exact tile_eq m ρ c t _ rfl _ d _ (by
    show (win0_3.index t (1 : Fin 3) * 512 + r.val) - j = win0_3.index t (1 : Fin 3) * 512 + (r.val - j); omega)

/-- WHAT POINT `t` WRITES BACK is block `t` of the convolution of the input and the taps as given. -/
theorem flushed_eq (c : Dev nD) (t : Fin cfg0.N) :
    (dats m ρ 0 c).flushed 3 t
      = ((cfg0.win 3).blk t).view.read (Elt Ideal) (conv (V m ρ c main_arg0) (m ((c : Thread nD τ).loc main_arg1))) := by
  show (cfg0.win 3).cut (grid0.coords t) ((dats m ρ 0 c).after 3 t) = _
  rw [after0_3]
  obtain ⟨e0, e1, e2, e3, e4, e5, e6, e7, e8, e9, e10, e11⟩ := idx_facts t
  funext y
  obtain ⟨z, r, d, rfl⟩ : ∃ (z : Fin 1) (r : Fin 512) (d : Fin 2048), y = ix3 z r d := ⟨y 0, y 1, y 2, eq_ix3 y⟩
  have hz : z = 0 := Subsingleton.elim _ _
  subst hz
  have hR : ((cfg0.win 3).blk t).view.read (Elt Ideal) (conv (V m ρ c main_arg0) (m ((c : Thread nD τ).loc main_arg1))) (ix3 (0 : Fin 1) r d)
      = convAt (V m ρ c main_arg0) (m ((c : Thread nD τ).loc main_arg1)) (⟨win0_3.index t (0 : Fin 3), e7⟩ : Fin 8)
          (⟨win0_3.index t (1 : Fin 3) * 512 + r.val, by omega⟩ : Fin 4096) d := by
    show conv (V m ρ c main_arg0) (m ((c : Thread nD τ).loc main_arg1)) (((cfg0.win 3).blk t).view.emb (ix3 (0 : Fin 1) r d)) = _
    rw [← conv_ix3]
    refine congrArg (conv (V m ρ c main_arg0) (m ((c : Thread nD τ).loc main_arg1))) (funext fun a => Fin.ext ?_)
    match a with
    | ⟨0, _⟩ => show win0_3.index t (0 : Fin 3) * 1 + 1 * 0 = win0_3.index t (0 : Fin 3); omega
    | ⟨1, _⟩ => show win0_3.index t (1 : Fin 3) * 512 + 1 * r.val = win0_3.index t (1 : Fin 3) * 512 + r.val; omega
    | ⟨2, _⟩ => show win0_3.index t (2 : Fin 3) * 2048 + 1 * d.val = d.val; omega
  refine Eq.trans ?_ hR.symm
  show outTile (grid0.coords t) (iblk m ρ c 0 t) (iblk m ρ c 1 t) (iblk m ρ c 2 t) (ix3 (0 : Fin 1) r d) = _
  unfold convAt
  by_cases hr : 8 ≤ r.val
  · rw [outTile_bulk _ _ _ _ r d hr, bulk_apply _ _ r d (by omega), tap4_ideal]
    refine congrArg₂ (· + ·) (congrArg₂ (· + ·) (congrArg₂ (· + ·) (congrArg₂ (· * ·) ?_ ?_) (congrArg₂ (· * ·) ?_ ?_))
      (congrArg₂ (· * ·) ?_ ?_)) (congrArg₂ (· * ·) ?_ ?_)
    · exact taps_eq m ρ c t 3 d
    · exact tile_past m ρ c t r d 0 (by omega) e7 (by omega) (by omega)
    · exact taps_eq m ρ c t 2 d
    · exact tile_past m ρ c t r d 1 (by omega) e7 (by omega) (by omega)
    · exact taps_eq m ρ c t 1 d
    · exact tile_past m ρ c t r d 2 (by omega) e7 (by omega) (by omega)
    · exact taps_eq m ρ c t 0 d
    · exact tile_past m ρ c t r d 3 (by omega) e7 (by omega) (by omega)
  · refine (outTile_head (grid0.coords t) _ _ _ (⟨r.val, by omega⟩ : Fin 8) d).trans ?_
    rw [head_apply, tap4_ideal]
    refine congrArg₂ (· + ·) (congrArg₂ (· + ·) (congrArg₂ (· + ·) (congrArg₂ (· * ·) ?_ ?_) (congrArg₂ (· * ·) ?_ ?_))
      (congrArg₂ (· * ·) ?_ ?_)) (congrArg₂ (· * ·) ?_ ?_)
    · exact taps_eq m ρ c t 3 d
    · exact tile_past m ρ c t r d 0 (by omega) e7 (by omega) (by omega)
    · exact taps_eq m ρ c t 2 d
    · exact above_eq m ρ c t _ rfl _ d _ rfl 1 7 rfl (by omega) (by omega)
    · exact taps_eq m ρ c t 1 d
    · exact above_eq m ρ c t _ rfl _ d _ rfl 2 6 rfl (by omega) (by omega)
    · exact taps_eq m ρ c t 0 d
    · exact above_eq m ρ c t _ rfl _ d _ rfl 3 5 rfl (by omega) (by omega)

/-! ## The result's blocks tile its array -/

theorem mem_blk (t : Fin cfg0.N) (i : S8x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1).slice (win0_3.rect t)).set ↔ _
  rw [View.set_slice_whole, Rect.mem_set_unit]
  exact Iff.rfl

/-- Every index of the result lies in the block of the point of its batch row and its tile. -/
theorem cover (i : S8x4096x2048.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 2048 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- THE RESULT ARRAY after the run is the convolution of the launched input and taps. -/
theorem final (c : Dev nD) :
    outArr m ρ c = conv (m ((c : Thread nD τ).loc main_arg0)) (m ((c : Thread nD τ).loc main_arg1)) := by
  rw [← V_arg0 m ρ c]
  exact (dats m ρ 0 c).arrAt_eq_of_cover 3 _ (fun t _ => flushed_eq m ρ c t) cover

/-- The idealized kernel's run with both results as functions of the arguments. -/
theorem run_value : θ_run defs (onTc (τ := τ) (main (F := Ideal))) ⟨m, fun _ => 0, ρ⟩ (fun r => ∀ c : Dev nD,
      r.2.mem ((c.tc : Thread nD τ).loc main_v1) = conv (m ((c : Thread nD τ).loc main_arg0)) (m ((c : Thread nD τ).loc main_arg1))
      ∧ r.2.mem ((c.tc : Thread nD τ).loc main_v2)
          = extractStridedSlice S8x3x2048 ![0, 4093, 0] (m ((c : Thread nD τ).loc main_arg0)) Gen.slices_S8x4096x2048_S8x3x2048_0_4093_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m ρ c), (h c).2⟩) (run_results m ρ)

end Cert.KernelIdeal.Conv

end
-- ==== Proof.RefValue.lean ====
/-
  The reference's first result is the convolution of its arguments, over the extended reals.

  The reference pads the input with three zero time steps in front, and adds onto a zero array, for k = 0, 1, 2, 3,
  the padded input from time step `k` on times tap `k` of each lane. The padded input at time `T + k` is the input
  `3 − k` steps before `T`, zero when that is before the row's start: the convolution's four products, the oldest first.
-/
import proofs.«173410_j35545149342129_2_alg».proof.Proof.Gen.ReferenceIdeal.Read
import proofs.«173410_j35545149342129_2_alg».proof.Proof.ConvSpec
import Idealize.ShloMosaic.Lib.KernelVsHost
import Idealize.ShloMosaic.PureOps.Ideal.Laws

set_option maxRecDepth 16384

noncomputable section

namespace Cert.ReferenceIdeal.RefValue

open Cert.ReferenceIdeal Cert.ReferenceIdeal.Gen Cert.ReferenceIdeal.Read Cert.ConvSpec
open Idealize.ShloMosaic Idealize.ShloMosaic.ValueIdx

/-- The padding value is the real zero. -/
theorem pad_zero (u : S_.Idx) : val_main_call0_v0 (F := Ideal) u = 0 := by
  show ((((0#32 : BitVec 32).toInt : ℤ) : ℝ) : EReal) = 0
  simp

/-- The padded input at batch row `b`, time `k + T`, lane `d` is the input `3 − k` steps before `T`. -/
theorem padded_apply (x0 : SX.Idx → EReal) (j : S8x4099x2048.Idx) (b : Fin 8) (T : Fin 4096) (d : Fin 2048) (k : ℕ) (hk : k ≤ 3)
    (h0 : (j 0).val = b.val) (h1 : (j 1).val = k + T.val) (h2 : (j 2).val = d.val) :
    val_main_v0 (F := Ideal) x0 j = past x0 b T d (3 - k) := by
  unfold val_main_v0 past
  by_cases h : 3 - k ≤ T.val
  · rw [dif_pos h]
    exact pad_apply_of_inside ![0, 3, 0] ![0, 0, 0] ![0, 0, 0] x0 _ pads_S8x4096x2048_S8x4099x2048_000_300_000 h_S_ j
      (ix3 b (⟨T.val - (3 - k), by omega⟩ : Fin 4096) d) (by
        intro a
        match a with
        | ⟨0, _⟩ => show (j 0).val = 0 + b.val * (0 + 1); omega
        | ⟨1, _⟩ => show (j 1).val = 3 + (T.val - (3 - k)) * (0 + 1); omega
        | ⟨2, _⟩ => show (j 2).val = 0 + d.val * (0 + 1); omega)
  · rw [dif_neg h]
    refine (pad_apply_of_not_inside ![0, 3, 0] ![0, 0, 0] ![0, 0, 0] x0 _ pads_S8x4096x2048_S8x4099x2048_000_300_000 h_S_ j (1 : Fin 3) (by
      intro hin
      have h3 : 3 ≤ (j 1).val := hin.1
      omega)).trans ?_
    exact pad_zero _

/-- Tap 0 of lane `d`, as the reference lays it along every batch row and time step. -/
theorem wlane0 (x1 : SW.Idx → EReal) (i : SX.Idx) : val_main_v6 (F := Ideal) x1 i = x1 (ix2 (i 2) (0 : Fin 4)) := by
  rw [val_main_v6_apply, val_main_v5_apply, val_main_v4_apply, val_main_v3_apply]
  exact congrArg x1 (funext fun a => Fin.ext (by
    match a with
    | ⟨0, _⟩ => show (i 2).val / 1 = (i 2).val; omega
    | ⟨1, _⟩ => rfl))

/-- Tap 1 of lane `d`, as the reference lays it along every batch row and time step. -/
theorem wlane1 (x1 : SW.Idx → EReal) (i : SX.Idx) : val_main_v13 (F := Ideal) x1 i = x1 (ix2 (i 2) (1 : Fin 4)) := by
  rw [val_main_v13_apply, val_main_v12_apply, val_main_v11_apply, val_main_v10_apply]
  exact congrArg x1 (funext fun a => Fin.ext (by
    match a with
    | ⟨0, _⟩ => show (i 2).val / 1 = (i 2).val; omega
    | ⟨1, _⟩ => rfl))

/-- Tap 2 of lane `d`, as the reference lays it along every batch row and time step. -/
theorem wlane2 (x1 : SW.Idx → EReal) (i : SX.Idx) : val_main_v20 (F := Ideal) x1 i = x1 (ix2 (i 2) (2 : Fin 4)) := by
  rw [val_main_v20_apply, val_main_v19_apply, val_main_v18_apply, val_main_v17_apply]
  exact congrArg x1 (funext fun a => Fin.ext (by
    match a with
    | ⟨0, _⟩ => show (i 2).val / 1 = (i 2).val; omega
    | ⟨1, _⟩ => rfl))

/-- Tap 3 of lane `d`, as the reference lays it along every batch row and time step. -/
theorem wlane3 (x1 : SW.Idx → EReal) (i : SX.Idx) : val_main_v27 (F := Ideal) x1 i = x1 (ix2 (i 2) (3 : Fin 4)) := by
  rw [val_main_v27_apply, val_main_v26_apply, val_main_v25_apply, val_main_v24_apply]
  exact congrArg x1 (funext fun a => Fin.ext (by
    match a with
    | ⟨0, _⟩ => show (i 2).val / 1 = (i 2).val; omega
    | ⟨1, _⟩ => rfl))

/-- THE REFERENCE IS THE CONVOLUTION: index by index, the four products added oldest first onto zero. -/
theorem ref_conv (x0 : SX.Idx → EReal) (x1 : SW.Idx → EReal) : val_main_v29 (F := Ideal) x0 x1 = conv x0 x1 := by
  funext i
  obtain ⟨b, T, d, rfl⟩ : ∃ (b : Fin 8) (T : Fin 4096) (d : Fin 2048), i = ix3 b T d := ⟨i 0, i 1, i 2, eq_ix3 i⟩
  rw [conv_ix3]
  unfold convAt
  rw [val_main_v29_apply, val_main_v28_apply, val_main_v22_apply, val_main_v21_apply, val_main_v15_apply, val_main_v14_apply,
    val_main_v8_apply, val_main_v7_apply, val_main_v1_apply, val_main_cst_apply,
    val_main_v2_apply, val_main_v9_apply, val_main_v16_apply, val_main_v23_apply,
    wlane0, wlane1, wlane2, wlane3,
    padded_apply x0 (idx_main_v2 (ix3 b T d)) b T d 0 (by omega) rfl (by show T.val = 0 + T.val; omega) rfl,
    padded_apply x0 (idx_main_v9 (ix3 b T d)) b T d 1 (by omega) rfl rfl rfl,
    padded_apply x0 (idx_main_v16 (ix3 b T d)) b T d 2 (by omega) rfl rfl rfl,
    padded_apply x0 (idx_main_v23 (ix3 b T d)) b T d 3 (by omega) rfl rfl rfl]
  show Ideal.ofBits .f32 0x00000000#32 + past x0 b T d 3 * x1 (ix2 d 0) + past x0 b T d 2 * x1 (ix2 d 1) + past x0 b T d 1 * x1 (ix2 d 2)
      + past x0 b T d 0 * x1 (ix2 d 3) = _
  rw [Ideal.ofBits_zero_f32]
  exact oldest_first _ _ _ _ _ _ _ _

end Cert.ReferenceIdeal.RefValue

end
-- ==== Proof.lean ====
/-
  A causal depthwise convolution with four taps, tiled over time, against its plain reference.

  Both programs compute, for batch row b, time T and channel d,
      out(b,T,d) = w(d,3)·x(b,T,d) + w(d,2)·x(b,T-1,d) + w(d,1)·x(b,T-2,d) + w(d,0)·x(b,T-3,d),
  an input before the start of the row reading as zero, and return beside it the input's last three time steps.
  The kernel works tile by tile (512 time steps of one batch row at a point), reading from the SAME input array both
  the tile and the eight time steps before it; it shifts the tile cyclically for the bulk of the rows and repairs the
  first eight rows from the true predecessors, masked to zero at the first tile. The reference pads the input with
  three zero time steps and adds four shifted products onto a zero array, the oldest input first.

  The two differ in the order of the four-term sum and of each product's factors only, so they agree on every
  extended real — no finiteness of the inputs is used. The three programs' runs leave their argument arrays as
  they were: no host operation writes them, and the kernel's region only reads the input (its share split between
  the two windows cut from it and joined again at the region's exit).
-/
import proofs.«173410_j35545149342129_2_alg».proof.Defs
import proofs.«173410_j35545149342129_2_alg».proof.Proof.Gen.Kernel
import proofs.«173410_j35545149342129_2_alg».proof.Proof.Gen.KernelIdeal
import proofs.«173410_j35545149342129_2_alg».proof.Proof.Gen.ReferenceIdeal
import proofs.«173410_j35545149342129_2_alg».proof.Proof.Gen.ReferenceIdeal.Run
import proofs.«173410_j35545149342129_2_alg».proof.Proof.Gen.ReferenceIdeal.Read
import proofs.«173410_j35545149342129_2_alg».proof.Proof.Gen.Pre_finite_inputs
import proofs.«173410_j35545149342129_2_alg».proof.Proof.BitsEnds
import proofs.«173410_j35545149342129_2_alg».proof.Proof.IdealValue
import proofs.«173410_j35545149342129_2_alg».proof.Proof.RefValue

set_option maxRecDepth 16384

noncomputable section

namespace Cert.Proof

open Idealize.ShloMosaic Idealize.ShloMosaic.TcCoe Idealize.SL.Sem

/-- The printed kernel runs to the end, nothing faulting, its arguments unchanged. -/
theorem frame_kernel : Cert.frame_Kernel := fun m ρ _ => Cert.Kernel.Conv.frame (F := Bits) m ρ

/-- So does its reading at the extended reals. -/
theorem frame_kernelIdeal : Cert.frame_KernelIdeal := fun m ρ _ => Cert.KernelIdeal.Conv.frame (F := Ideal) m ρ

/-- The reference is host operations only: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the convolution of the arguments in the first result and the slice of the input's last three
    time steps in the second. -/
theorem algebraic : Cert.algebraic_KernelIdeal_ReferenceIdeal := by
  intro m ρ m' ρ' _ hagree
  refine ⟨fun c => Cert.ConvSpec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => extractStridedSlice Cert.KernelIdeal.S8x3x2048 ![0, 4093, 0]
      (m ((c.tc : Thread Cert.KernelIdeal.nD Cert.KernelIdeal.τ).loc Cert.KernelIdeal.main_arg0)) Cert.KernelIdeal.Gen.slices_S8x4096x2048_S8x3x2048_0_4093_0,
    Cert.KernelIdeal.Conv.run_value m ρ, ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans ((Cert.ReferenceIdeal.Read.val_main_v29_eq _ _).trans ((Cert.ReferenceIdeal.RefValue.ref_conv _ _).trans ?_))
    rw [(hagree c).1, (hagree c).2]
  · refine (h c).2.1.trans ?_
    rw [(hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
